-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x32 : Shape := ⟨2, ![10000, 32]⟩
abbrev S159854x32 : Shape := ⟨2, ![159854, 32]⟩
abbrev S32x32 : Shape := ⟨2, ![32, 32]⟩
abbrev S159854 : Shape := ⟨1, ![159854]⟩
abbrev S2636206 : Shape := ⟨1, ![2636206]⟩
abbrev S_ : Shape := ⟨0, ![]⟩

class Facts : Prop where
  bcast_S_S10000x32 : S_.BroadcastsInDim S10000x32 (![] : Fin 0 → Fin S10000x32.rank)
  reducesTo_S10000x32_S_d0_1 : S10000x32.ReducesTo [0, 1] S_
  h_S_ : 0 < S_.numel
  bcast_S_S159854x32 : S_.BroadcastsInDim S159854x32 (![] : Fin 0 → Fin S159854x32.rank)
  reducesTo_S159854x32_S_d0_1 : S159854x32.ReducesTo [0, 1] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  main_v23

def fn {F : FTy → Type} [FloatOps F] (main_arg0 : FVec F S10000x32 .f32) (main_arg1 : FVec F S159854x32 .f32) (main_arg2 : FVec F S32x32 .f32) (main_arg3 : FVec F S32x32 .f32) (main_arg4 : FVec F S32x32 .f32) (main_arg5 : IVec S159854 32) (main_arg6 : IVec S2636206 32) (main_arg7 : IVec S2636206 32) (main_arg8 : IVec S2636206 32) (main_arg9 : IVec S159854 32) : IVec S_ 1 :=
  let main_v0 : FVec F S10000x32 .f32 := Host.absf main_arg0
  let main_cst : FVec F S_ .f32 := constant S_ .f32 0x7F800000#32
  let main_v1 : FVec F S10000x32 .f32 := broadcastInDim S10000x32 ![] bcast_S_S10000x32 main_cst
  let main_v2 : IVec S10000x32 1 := cmpf .olt main_v0 main_v1
  let main_c : IVec S_ 1 := constantI S_ 1 1#1
  let main_v3 : IVec S_ 1 := (fun x v => Host.reduce IntOp.andi x v reducesTo_S10000x32_S_d0_1 h_S_) main_v2 main_c
  let main_v4 : FVec F S159854x32 .f32 := Host.absf main_arg1
  let main_cst_0 : FVec F S_ .f32 := constant S_ .f32 0x7F800000#32
  let main_v5 : FVec F S159854x32 .f32 := broadcastInDim S159854x32 ![] bcast_S_S159854x32 main_cst_0
  let main_v6 : IVec S159854x32 1 := cmpf .olt main_v4 main_v5
  let main_c_1 : IVec S_ 1 := constantI S_ 1 1#1
  let main_v7 : IVec S_ 1 := (fun x v => Host.reduce IntOp.andi x v reducesTo_S159854x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_v13 main_v16
-- ==== Kernel.lean ====
abbrev S10000x32 : Shape := ⟨2, ![10000, 32]⟩
abbrev S159854x32 : Shape := ⟨2, ![159854, 32]⟩
abbrev S32x32 : Shape := ⟨2, ![32, 32]⟩
abbrev S159854 : Shape := ⟨1, ![159854]⟩
abbrev S2636206 : Shape := ⟨1, ![2636206]⟩
abbrev S_ : Shape := ⟨0, ![]⟩
abbrev S79927 : Shape := ⟨1, ![79927]⟩
abbrev S159854x1 : Shape := ⟨2, ![159854, 1]⟩
abbrev S79927x32 : Shape := ⟨2, ![79927, 32]⟩
abbrev S79927x1 : Shape := ⟨2, ![79927, 1]⟩
abbrev S2636206x1 : Shape := ⟨2, ![2636206, 1]⟩
abbrev S2636206x32 : Shape := ⟨2, ![2636206, 32]⟩
abbrev S2637312x32 : Shape := ⟨2, ![2637312, 32]⟩
abbrev S4352x32 : Shape := ⟨2, ![4352, 32]⟩
abbrev S82688x32 : Shape := ⟨2, ![82688, 32]⟩
abbrev S10000 : Shape := ⟨1, ![10000]⟩
abbrev S10000x1 : Shape := ⟨2, ![10000, 1]⟩

abbrev nBuf : Space → Nat
  | .hbm => 100
  | .vmem => 17
  | .smem => 0
  | _ => 0

abbrev bufTy : (tb : Table) → Fin (tcTables nBuf tb) → BufTy
  | .hbm, ⟨0, _⟩ => ⟨S10000x32, .f32⟩
  | .hbm, ⟨1, _⟩ => ⟨S159854x32, .f32⟩
  | .hbm, ⟨2, _⟩ => ⟨S32x32, .f32⟩
  | .hbm, ⟨3, _⟩ => ⟨S32x32, .f32⟩
  | .hbm, ⟨4, _⟩ => ⟨S32x32, .f32⟩
  | .hbm, ⟨5, _⟩ => ⟨S159854, .i32⟩
  | .hbm, ⟨6, _⟩ => ⟨S2636206, .i32⟩
  | .hbm, ⟨7, _⟩ => ⟨S2636206, .i32⟩
  | .hbm, ⟨8, _⟩ => ⟨S2636206, .i32⟩
  | .hbm, ⟨9, _⟩ => ⟨S159854, .i32⟩
  | .hbm, ⟨10, _⟩ => ⟨S_, .f32⟩
  | .hbm, ⟨11, _⟩ => ⟨S159854, .f32⟩
  | .hbm, ⟨12, _⟩ => ⟨S_, .f32⟩
  | .hbm, ⟨13, _⟩ => ⟨S79927, .f32⟩
  | .hbm, ⟨14, _⟩ => ⟨S159854x1, .i32⟩
  | .hbm, ⟨15, _⟩ => ⟨S79927, .f32⟩
  | .hbm, ⟨16, _⟩ => ⟨S_, .f32⟩
  | .hbm, ⟨17, _⟩ => ⟨S79927x32, .f32⟩
  | .hbm, ⟨18, _⟩ => ⟨S159854x1, .i32⟩
  | .hbm, ⟨19, _⟩ => ⟨S79927x32, .f32⟩
  | .hbm, ⟨20, _⟩ => ⟨S79927x1, .f32⟩
  | .hbm, ⟨21, _⟩ => ⟨S79927x32, .f32⟩
  | .hbm, ⟨22, _⟩ => ⟨S79927x32, .f32⟩
  | .hbm, ⟨23, _⟩ => ⟨S_, .i32⟩
  | .hbm, ⟨24, _⟩ => ⟨S2636206, .i32⟩
  | .hbm, ⟨25, _⟩ => ⟨S2636206, .i1⟩
  | .hbm, ⟨26, _⟩ => ⟨S_, .i32⟩
  | .hbm, ⟨27, _⟩ => ⟨S2636206, .i32⟩
  | .hbm, ⟨28, _⟩ => ⟨S2636206, .i32⟩
  | .hbm, ⟨29, _⟩ => ⟨S2636206, .i32⟩
  | .hbm, ⟨30, _⟩ => ⟨S2636206x1, .i32⟩
  | .hbm, ⟨31, _⟩ => ⟨S2636206x32, .f32⟩
  | .hbm, ⟨32, _⟩ => ⟨S_, .i32⟩
  | .hbm, ⟨33, _⟩ => ⟨S2636206, .i32⟩
  | .hbm, ⟨34, _⟩ => ⟨S2636206, .i1⟩
  | .hbm, ⟨35, _⟩ => ⟨S_, .i32⟩
  | .hbm, ⟨36, _⟩ => ⟨S2636206, .i32⟩
  | .hbm, ⟨37, _⟩ => ⟨S2636206, .i32⟩
  | .hbm, ⟨38, _⟩ => ⟨S2636206, .i32⟩
  | .hbm, ⟨39, _⟩ => ⟨S2636206x1, .i32⟩
  | .hbm, ⟨40, _⟩ => ⟨S2636206x32, .f32⟩
  | .hbm, ⟨41, _⟩ => ⟨S_, .i32⟩
  | .hbm, ⟨42, _⟩ => ⟨S_, .f32⟩
  | .hbm, ⟨43, _⟩ => ⟨S2637312x32, .f32⟩
  | .hbm, ⟨44, _⟩ => ⟨S_, .i32⟩
  | .hbm, ⟨45, _⟩ => ⟨S_, .f32⟩
  | .hbm, ⟨46, _⟩ => ⟨S2637312x32, .f32⟩
  | .hbm, ⟨47, _⟩ => ⟨S2637312x32, .f32⟩
  | .hbm, ⟨48, _⟩ => ⟨S2637312x32, .f32⟩
  | .hbm, ⟨49, _⟩ => ⟨S2636206x32, .f32⟩
  | .hbm, ⟨50, _⟩ => ⟨S2636206x32, .f32⟩
  | .hbm, ⟨51, _⟩ => ⟨S_, .f32⟩
  | .hbm, ⟨52, _⟩ => ⟨S2636206, .f32⟩
  | .hbm, ⟨53, _⟩ => ⟨S_, .f32⟩
  | .hbm, ⟨54, _⟩ => ⟨S79927, .f32⟩
  | .hbm, ⟨55, _⟩ => ⟨S2636206x1, .i32⟩
  | .hbm, ⟨56, _⟩ => ⟨S79927, .f32⟩
  | .hbm, ⟨57, _⟩ => ⟨S_, .f32⟩
  | .hbm, ⟨58, _⟩ => ⟨S79927x32, .f32⟩
  | .hbm, ⟨59, _⟩ => ⟨S2636206x1, .i32⟩
  | .hbm, ⟨60, _⟩ => ⟨S79927x32, .f32⟩
  | .hbm, ⟨61, _⟩ => ⟨S_, .f32⟩
  | .hbm, ⟨62, _⟩ => ⟨S79927, .f32⟩
  | .hbm, ⟨63, _⟩ => ⟨S79927, .f32⟩
  | .hbm, ⟨64, _⟩ => ⟨S79927x1, .f32⟩
  | .hbm, ⟨65, _⟩ => ⟨S79927x32, .f32⟩
  | .hbm, ⟨66, _⟩ => ⟨S79927x32, .f32⟩
  | .hbm, ⟨67, _⟩ => ⟨S_, .i32⟩
  | .hbm, ⟨68, _⟩ => ⟨S_, .f32⟩
  | .hbm, ⟨69, _⟩ => ⟨S82688x32, .f32⟩
  | .hbm, ⟨70, _⟩ => ⟨S_, .i32⟩
  | .hbm, ⟨71, _⟩ => ⟨S_, .f32⟩
  | .hbm, ⟨72, _⟩ => ⟨S82688x32, .f32⟩
  | .hbm, ⟨73, _⟩ => ⟨S82688x32, .f32⟩
  | .hbm, ⟨74, _⟩ => ⟨S79927x32, .f32⟩
  | .hbm, ⟨75, _⟩ => ⟨S_, .i32⟩
  | .hbm, ⟨76, _⟩ => ⟨S159854, .i32⟩
  | .hbm, ⟨77, _⟩ => ⟨S159854, .i1⟩
  | .hbm, ⟨78, _⟩ => ⟨S_, .i32⟩
  | .hbm, ⟨79, _⟩ => ⟨S159854, .i32⟩
  | .hbm, ⟨80, _⟩ => ⟨S159854, .i32⟩
  | .hbm, ⟨81, _⟩ => ⟨S159854, .i32⟩
  | .hbm, ⟨82, _⟩ => ⟨S159854x1, .i32⟩
  | .hbm, ⟨83, _⟩ => ⟨S159854x32, .f32⟩
  | .hbm, ⟨84, _⟩ => ⟨S_, .f32⟩
  | .hbm, ⟨85, _⟩ => ⟨S2636206, .f32⟩
  | .hbm, ⟨86, _⟩ => ⟨S_, .f32⟩
  | .hbm, ⟨87, _⟩ => ⟨S10000, .f32⟩
  | .hbm, ⟨88, _⟩ => ⟨S2636206x1, .i32⟩
  | .hbm, ⟨89, _⟩ => ⟨S10000, .f32⟩
  | .hbm, ⟨90, _⟩ => ⟨S_, .f32⟩
  | .hbm, ⟨91, _⟩ => ⟨S10000x32, .f32⟩
  | .hbm, ⟨92, _⟩ => ⟨S2636206x1, .i32⟩
  | .hbm, ⟨93, _⟩ => ⟨S10000x32, .f32⟩
  | .hbm, ⟨94, _⟩ => ⟨S_, .f32⟩
  | .hbm, ⟨95, _⟩ => ⟨S10000, .f32⟩
  | .hbm, ⟨96, _⟩ => ⟨S10000, .f32⟩
  | .hbm, ⟨97, _⟩ => ⟨S10000x1, .f32⟩
  | .hbm, ⟨98, _⟩ => ⟨S10000x32, .f32⟩
  | .hbm, ⟨99, _⟩ => ⟨S10000x32, .f32⟩
  | .local _ .vmem, ⟨0, _⟩ => ⟨S4352x32, .f32⟩
  | .local _ .vmem, ⟨1, _⟩ => ⟨S4352x32, .f32⟩
  | .local _ .vmem, ⟨2, _⟩ => ⟨S4352x32, .f32⟩
  | .local _ .vmem, ⟨3, _⟩ => ⟨S4352x32, .f32⟩
  | .local _ .vmem, ⟨4, _⟩ => ⟨S32x32, .f32⟩
  | .local _ .vmem, ⟨5, _⟩ => ⟨S32x32, .f32⟩
  | .local _ .vmem, ⟨6, _⟩ => ⟨S4352x32, .f32⟩
  | .local _ .vmem, ⟨7, _⟩ => ⟨S4352x32, .f32⟩
  | .local _ .vmem, ⟨8, _⟩ => ⟨S4352x32, .f32⟩
  | .local _ .vmem, ⟨9, _⟩ => ⟨S4352x32, .f32⟩
  | .local _ .vmem, ⟨10, _⟩ => ⟨S4352x32, .f32⟩
  | .local _ .vmem, ⟨11, _⟩ => ⟨S4352x32, .f32⟩
  | .local _ .vmem, ⟨12, _⟩ => ⟨S4352x32, .f32⟩
  | .local _ .vmem, ⟨13, _⟩ => ⟨S4352x32, .f32⟩
  | .local _ .vmem, ⟨14, _⟩ => ⟨S32x32, .f32⟩
  | .local _ .vmem, ⟨15, _⟩ => ⟨S4352x32, .f32⟩
  | .local _ .vmem, ⟨16, _⟩ => ⟨S4352x32, .f32⟩
  | _, _ => ⟨S10000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_call0_v0 : Ref sig .tc := ⟨.hbm, 42, rfl⟩
abbrev main_v24 : Ref sig .tc := ⟨.hbm, 43, rfl⟩
abbrev main_c_6 : Ref sig .tc := ⟨.hbm, 44, rfl⟩
abbrev main_call1_v0 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_11 : Ref sig .tc := ⟨.hbm, 67, rfl⟩
abbrev main_call2_v0 : Ref sig .tc := ⟨.hbm, 68, rfl⟩
abbrev main_v41 : Ref sig .tc := ⟨.hbm, 69, rfl⟩
abbrev main_c_12 : Ref sig .tc := ⟨.hbm, 70, rfl⟩
abbrev main_call3_v0 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_c_13 : Ref sig .tc := ⟨.hbm, 75, rfl⟩
abbrev main_v45 : Ref sig .tc := ⟨.hbm, 76, rfl⟩
abbrev main_v46 : Ref sig .tc := ⟨.hbm, 77, rfl⟩
abbrev main_c_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_15 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_17 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_18 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![606], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4352x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4352x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4352x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4352x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![19], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4352x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4352x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4352x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S159854 : S_.BroadcastsInDim S159854 (![] : Fin 0 → Fin S159854.rank)
  bcast_S_S79927 : S_.BroadcastsInDim S79927 (![] : Fin 0 → Fin S79927.rank)
  bcast_S159854_S159854x1_0 : S159854.BroadcastsInDim S159854x1 (![0] : Fin 1 → Fin S159854x1.rank)
  bcast_S_S79927x32 : S_.BroadcastsInDim S79927x32 (![] : Fin 0 → Fin S79927x32.rank)
  bcast_S79927_S79927x1_0 : S79927.BroadcastsInDim S79927x1 (![0] : Fin 1 → Fin S79927x1.rank)
  bcast_S79927x1_S79927x32_0_1 : S79927x1.BroadcastsInDim S79927x32 (![0, 1] : Fin 2 → Fin S79927x32.rank)
  bcast_S_S2636206 : S_.BroadcastsInDim S2636206 (![] : Fin 0 → Fin S2636206.rank)
  bcast_S2636206_S2636206x1_0 : S2636206.BroadcastsInDim S2636206x1 (![0] : Fin 1 → Fin S2636206x1.rank)
  pads_S2636206x32_S2637312x32_011060_000 : S2636206x32.Pads (![0, 0] : Fin 2 → Nat) ![1106, 0] ![0, 0] S2637312x32
  h_S_ : 0 < S_.numel
  inb_S4352x32_S4352x32_0_0 : ∀ a, (![0, 0] : Fin 2 → Nat) a + S4352x32.size a ≤ S4352x32.size a
  h_S4352x32 : 0 < S4352x32.numel
  shapeCasts_S4352x32_S4352x32 : S4352x32.ShapeCasts S4352x32
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  slices_S2637312x32_S2636206x32_0_0 : S2637312x32.Slices ![0, 0] S2636206x32
  pads_S79927x32_S82688x32_027610_000 : S79927x32.Pads (![0, 0] : Fin 2 → Nat) ![2761, 0] ![0, 0] S82688x32
  slices_S82688x32_S79927x32_0_0 : S82688x32.Slices ![0, 0] S79927x32
  bcast_S_S10000 : S_.BroadcastsInDim S10000 (![] : Fin 0 → Fin S10000.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  scatter_S79927_S159854x1_S159854_n_0_0_1_wf : ScatterDims.WF S79927 S159854x1 S159854 [] [0] [0] 1
  scatter_S79927x32_S159854x1_S159854x32_1_0_0_1_wf : ScatterDims.WF S79927x32 S159854x1 S159854x32 [1] [0] [0] 1
  gather_S10000x32_S2636206x1_S2636206x32_1_0_n_n_0_1_132_wf : GatherDims.WF S10000x32 S2636206x1 S2636206x32 [1] [0] [] [0] [] 1 ![1, 32]
  gather_S79927x32_S2636206x1_S2636206x32_1_0_n_n_0_1_132_wf : GatherDims.WF S79927x32 S2636206x1 S2636206x32 [1] [0] [] [0] [] 1 ![1, 32]
  dot_S4352x32_S32x32_S4352x32_1_0_0_1_n_n_wf : DotDims.WF S4352x32 S32x32 S4352x32 [1] [0] [0] [1] [] []
  scatter_S79927_S2636206x1_S2636206_n_0_0_1_wf : ScatterDims.WF S79927 S2636206x1 S2636206 [] [0] [0] 1
  scatter_S79927x32_S2636206x1_S2636206x32_1_0_0_1_wf : ScatterDims.WF S79927x32 S2636206x1 S2636206x32 [1] [0] [0] 1
  gather_S79927x32_S159854x1_S159854x32_1_0_n_n_0_1_132_wf : GatherDims.WF S79927x32 S159854x1 S159854x32 [1] [0] [] [0] [] 1 ![1, 32]
  scatter_S10000_S2636206x1_S2636206_n_0_0_1_wf : ScatterDims.WF S10000 S2636206x1 S2636206 [] [0] [0] 1
  scatter_S10000x32_S2636206x1_S2636206x32_1_0_0_1_wf : ScatterDims.WF S10000x32 S2636206x1 S2636206x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4352x32.size a ≤ S2637312x32.size a
  hwx0_0 : ∀ i : grid0.Coords, EltTy.bits .f32 = 32 ∨ (Rect.block (s := S2637312x32) S4352x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4352x32.size a ≤ S2637312x32.size a
  hwx0_1 : ∀ i : grid0.Coords, EltTy.bits .f32 = 32 ∨ (Rect.block (s := S2637312x32) S4352x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x32.size a ≤ S32x32.size a
  hwx0_2 : ∀ i : grid0.Coords, EltTy.bits .f32 = 32 ∨ (Rect.block (s := S32x32) S32x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4352x32.size a ≤ S2637312x32.size a
  hwx0_4 : ∀ i : grid0.Coords, EltTy.bits .f32 = 32 ∨ (Rect.block (s := S2637312x32) S4352x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4352x32.size a ≤ S2637312x32.size a
  hwx0_5 : ∀ i : grid0.Coords, EltTy.bits .f32 = 32 ∨ (Rect.block (s := S2637312x32) S4352x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4352x32.size a ≤ S82688x32.size a
  hwx1_0 : ∀ i : grid1.Coords, EltTy.bits .f32 = 32 ∨ (Rect.block (s := S82688x32) S4352x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4352x32.size a ≤ S82688x32.size a
  hwx1_1 : ∀ i : grid1.Coords, EltTy.bits .f32 = 32 ∨ (Rect.block (s := S82688x32) S4352x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4352x32.size a ≤ S82688x32.size a
  hwx1_3 : ∀ i : grid1.Coords, EltTy.bits .f32 = 32 ∨ (Rect.block (s := S82688x32) S4352x32.size (cc1_transform_3 i) (hinb1_3 i)).WholeWords (EltTy.packing .f32)

variable [Facts₀]

def scatter_S79927_S159854x1_S159854_n_0_0_1 : ScatterDims S79927 S159854x1 S159854 where
  updateWindowDims := []
  insertedWindowDims := [0]
  scatterDimsToOperandDims := [0]
  indexVectorDim := 1
  wf := scatter_S79927_S159854x1_S159854_n_0_0_1_wf
def scatter_S79927x32_S159854x1_S159854x32_1_0_0_1 : ScatterDims S79927x32 S159854x1 S159854x32 where
  updateWindowDims := [1]
  insertedWindowDims := [0]
  scatterDimsToOperandDims := [0]
  indexVectorDim := 1
  wf := scatter_S79927x32_S159854x1_S159854x32_1_0_0_1_wf
def gather_S10000x32_S2636206x1_S2636206x32_1_0_n_n_0_1_132 : GatherDims S10000x32 S2636206x1 S2636206x32 where
  offsetDims := [1]
  collapsedSliceDims := [0]
  operandBatchingDims := []
  startIndicesBatchingDims := []
  startIndexMap := [0]
  indexVectorDim := 1
  sliceSizes := ![1, 32]
  wf := gather_S10000x32_S2636206x1_S2636206x32_1_0_n_n_0_1_132_wf
def gather_S79927x32_S2636206x1_S2636206x32_1_0_n_n_0_1_132 : GatherDims S79927x32 S2636206x1 S2636206x32 where
  offsetDims := [1]
  collapsedSliceDims := [0]
  operandBatchingDims := []
  startIndicesBatchingDims := []
  startIndexMap := [0]
  indexVectorDim := 1
  sliceSizes := ![1, 32]
  wf := gather_S79927x32_S2636206x1_S2636206x32_1_0_n_n_0_1_132_wf
def dot_S4352x32_S32x32_S4352x32_1_0_0_1_n_n : DotDims S4352x32 S32x32 S4352x32 where
  lhsContracting := [1]
  rhsContracting := [0]
  lhsNonContracting := [0]
  rhsNonContracting := [1]
  lhsBatch := []
  rhsBatch := []
  wf := dot_S4352x32_S32x32_S4352x32_1_0_0_1_n_n_wf
def scatter_S79927_S2636206x1_S2636206_n_0_0_1 : ScatterDims S79927 S2636206x1 S2636206 where
  updateWindowDims := []
  insertedWindowDims := [0]
  scatterDimsToOperandDims := [0]
  indexVectorDim := 1
  wf := scatter_S79927_S2636206x1_S2636206_n_0_0_1_wf
def scatter_S79927x32_S2636206x1_S2636206x32_1_0_0_1 : ScatterDims S79927x32 S2636206x1 S2636206x32 where
  updateWindowDims := [1]
  insertedWindowDims := [0]
  scatterDimsToOperandDims := [0]
  indexVectorDim := 1
  wf := scatter_S79927x32_S2636206x1_S2636206x32_1_0_0_1_wf
def gather_S79927x32_S159854x1_S159854x32_1_0_n_n_0_1_132 : GatherDims S79927x32 S159854x1 S159854x32 where
  offsetDims := [1]
  collapsedSliceDims := [0]
  operandBatchingDims := []
  startIndicesBatchingDims := []
  startIndexMap := [0]
  indexVectorDim := 1
  sliceSizes := ![1, 32]
  wf := gather_S79927x32_S159854x1_S159854x32_1_0_n_n_0_1_132_wf
def scatter_S10000_S2636206x1_S2636206_n_0_0_1 : ScatterDims S10000 S2636206x1 S2636206 where
  updateWindowDims := []
  insertedWindowDims := [0]
  scatterDimsToOperandDims := [0]
  indexVectorDim := 1
  wf := scatter_S10000_S2636206x1_S2636206_n_0_0_1_wf
def scatter_S10000x32_S2636206x1_S2636206x32_1_0_0_1 : ScatterDims S10000x32 S2636206x1 S2636206x32 where
  updateWindowDims := [1]
  insertedWindowDims := [0]
  scatterDimsToOperandDims := [0]
  indexVectorDim := 1
  wf := scatter_S10000x32_S2636206x1_S2636206x32_1_0_0_1_wf

abbrev win0_0 : Pipeline.Window sig grid0 :=
  Pipeline.Window.ofSpec (Memref.whole main_v24) S4352x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4352x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S4352x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S4352x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S4352x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S4352x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S4352x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x32 : Shape := ⟨2, ![10000, 32]⟩
abbrev S159854x32 : Shape := ⟨2, ![159854, 32]⟩
abbrev S32x32 : Shape := ⟨2, ![32, 32]⟩
abbrev S159854 : Shape := ⟨1, ![159854]⟩
abbrev S2636206 : Shape := ⟨1, ![2636206]⟩
abbrev S_ : Shape := ⟨0, ![]⟩
abbrev S79927 : Shape := ⟨1, ![79927]⟩
abbrev S159854x1 : Shape := ⟨2, ![159854, 1]⟩
abbrev S79927x32 : Shape := ⟨2, ![79927, 32]⟩
abbrev S79927x1 : Shape := ⟨2, ![79927, 1]⟩
abbrev S2636206x1 : Shape := ⟨2, ![2636206, 1]⟩
abbrev S2636206x32 : Shape := ⟨2, ![2636206, 32]⟩
abbrev S10000 : Shape := ⟨1, ![10000]⟩
abbrev S10000x1 : Shape := ⟨2, ![10000, 1]⟩

abbrev nBuf : Space → Nat
  | .hbm => 96
  | .vmem => 0
  | .smem => 0
  | _ => 0

abbrev bufTy : (tb : Table) → Fin (tcTables nBuf tb) → BufTy
  | .hbm, ⟨0, _⟩ => ⟨S10000x32, .f32⟩
  | .hbm, ⟨1, _⟩ => ⟨S159854x32, .f32⟩
  | .hbm, ⟨2, _⟩ => ⟨S32x32, .f32⟩
  | .hbm, ⟨3, _⟩ => ⟨S32x32, .f32⟩
  | .hbm, ⟨4, _⟩ => ⟨S32x32, .f32⟩
  | .hbm, ⟨5, _⟩ => ⟨S159854, .i32⟩
  | .hbm, ⟨6, _⟩ => ⟨S2636206, .i32⟩
  | .hbm, ⟨7, _⟩ => ⟨S2636206, .i32⟩
  | .hbm, ⟨8, _⟩ => ⟨S2636206, .i32⟩
  | .hbm, ⟨9, _⟩ => ⟨S159854, .i32⟩
  | .hbm, ⟨10, _⟩ => ⟨S_, .f32⟩
  | .hbm, ⟨11, _⟩ => ⟨S159854, .f32⟩
  | .hbm, ⟨12, _⟩ => ⟨S_, .f32⟩
  | .hbm, ⟨13, _⟩ => ⟨S79927, .f32⟩
  | .hbm, ⟨14, _⟩ => ⟨S159854x1, .i32⟩
  | .hbm, ⟨15, _⟩ => ⟨S79927, .f32⟩
  | .hbm, ⟨16, _⟩ => ⟨S_, .f32⟩
  | .hbm, ⟨17, _⟩ => ⟨S79927x32, .f32⟩
  | .hbm, ⟨18, _⟩ => ⟨S159854x1, .i32⟩
  | .hbm, ⟨19, _⟩ => ⟨S79927x32, .f32⟩
  | .hbm, ⟨20, _⟩ => ⟨S79927x1, .f32⟩
  | .hbm, ⟨21, _⟩ => ⟨S79927x32, .f32⟩
  | .hbm, ⟨22, _⟩ => ⟨S79927x32, .f32⟩
  | .hbm, ⟨23, _⟩ => ⟨S_, .i32⟩
  | .hbm, ⟨24, _⟩ => ⟨S2636206, .i32⟩
  | .hbm, ⟨25, _⟩ => ⟨S2636206, .i1⟩
  | .hbm, ⟨26, _⟩ => ⟨S_, .i32⟩
  | .hbm, ⟨27, _⟩ => ⟨S2636206, .i32⟩
  | .hbm, ⟨28, _⟩ => ⟨S2636206, .i32⟩
  | .hbm, ⟨29, _⟩ => ⟨S2636206, .i32⟩
  | .hbm, ⟨30, _⟩ => ⟨S2636206x1, .i32⟩
  | .hbm, ⟨31, _⟩ => ⟨S2636206x32, .f32⟩
  | .hbm, ⟨32, _⟩ => ⟨S_, .i32⟩
  | .hbm, ⟨33, _⟩ => ⟨S2636206, .i32⟩
  | .hbm, ⟨34, _⟩ => ⟨S2636206, .i1⟩
  | .hbm, ⟨35, _⟩ => ⟨S_, .i32⟩
  | .hbm, ⟨36, _⟩ => ⟨S2636206, .i32⟩
  | .hbm, ⟨37, _⟩ => ⟨S2636206, .i32⟩
  | .hbm, ⟨38, _⟩ => ⟨S2636206, .i32⟩
  | .hbm, ⟨39, _⟩ => ⟨S2636206x1, .i32⟩
  | .hbm, ⟨40, _⟩ => ⟨S2636206x32, .f32⟩
  | .hbm, ⟨41, _⟩ => ⟨S2636206x32, .f32⟩
  | .hbm, ⟨42, _⟩ => ⟨S2636206x32, .f32⟩
  | .hbm, ⟨43, _⟩ => ⟨S_, .f32⟩
  | .hbm, ⟨44, _⟩ => ⟨S2636206x32, .f32⟩
  | .hbm, ⟨45, _⟩ => ⟨S2636206x32, .f32⟩
  | .hbm, ⟨46, _⟩ => ⟨S_, .f32⟩
  | .hbm, ⟨47, _⟩ => ⟨S2636206, .f32⟩
  | .hbm, ⟨48, _⟩ => ⟨S_, .f32⟩
  | .hbm, ⟨49, _⟩ => ⟨S79927, .f32⟩
  | .hbm, ⟨50, _⟩ => ⟨S2636206x1, .i32⟩
  | .hbm, ⟨51, _⟩ => ⟨S79927, .f32⟩
  | .hbm, ⟨52, _⟩ => ⟨S_, .f32⟩
  | .hbm, ⟨53, _⟩ => ⟨S79927x32, .f32⟩
  | .hbm, ⟨54, _⟩ => ⟨S2636206x1, .i32⟩
  | .hbm, ⟨55, _⟩ => ⟨S79927x32, .f32⟩
  | .hbm, ⟨56, _⟩ => ⟨S_, .f32⟩
  | .hbm, ⟨57, _⟩ => ⟨S79927, .f32⟩
  | .hbm, ⟨58, _⟩ => ⟨S79927, .f32⟩
  | .hbm, ⟨59, _⟩ => ⟨S79927x1, .f32⟩
  | .hbm, ⟨60, _⟩ => ⟨S79927x32, .f32⟩
  | .hbm, ⟨61, _⟩ => ⟨S79927x32, .f32⟩
  | .hbm, ⟨62, _⟩ => ⟨S79927x32, .f32⟩
  | .hbm, ⟨63, _⟩ => ⟨S79927x32, .f32⟩
  | .hbm, ⟨64, _⟩ => ⟨S_, .f32⟩
  | .hbm, ⟨65, _⟩ => ⟨S79927x32, .f32⟩
  | .hbm, ⟨66, _⟩ => ⟨S79927x32, .f32⟩
  | .hbm, ⟨67, _⟩ => ⟨S2636206x32, .f32⟩
  | .hbm, ⟨68, _⟩ => ⟨S_, .f32⟩
  | .hbm, ⟨69, _⟩ => ⟨S2636206x32, .f32⟩
  | .hbm, ⟨70, _⟩ => ⟨S2636206x32, .f32⟩
  | .hbm, ⟨71, _⟩ => ⟨S_, .i32⟩
  | .hbm, ⟨72, _⟩ => ⟨S159854, .i32⟩
  | .hbm, ⟨73, _⟩ => ⟨S159854, .i1⟩
  | .hbm, ⟨74, _⟩ => ⟨S_, .i32⟩
  | .hbm, ⟨75, _⟩ => ⟨S159854, .i32⟩
  | .hbm, ⟨76, _⟩ => ⟨S159854, .i32⟩
  | .hbm, ⟨77, _⟩ => ⟨S159854, .i32⟩
  | .hbm, ⟨78, _⟩ => ⟨S159854x1, .i32⟩
  | .hbm, ⟨79, _⟩ => ⟨S159854x32, .f32⟩
  | .hbm, ⟨80, _⟩ => ⟨S_, .f32⟩
  | .hbm, ⟨81, _⟩ => ⟨S2636206, .f32⟩
  | .hbm, ⟨82, _⟩ => ⟨S_, .f32⟩
  | .hbm, ⟨83, _⟩ => ⟨S10000, .f32⟩
  | .hbm, ⟨84, _⟩ => ⟨S2636206x1, .i32⟩
  | .hbm, ⟨85, _⟩ => ⟨S10000, .f32⟩
  | .hbm, ⟨86, _⟩ => ⟨S_, .f32⟩
  | .hbm, ⟨87, _⟩ => ⟨S10000x32, .f32⟩
  | .hbm, ⟨88, _⟩ => ⟨S2636206x1, .i32⟩
  | .hbm, ⟨89, _⟩ => ⟨S10000x32, .f32⟩
  | .hbm, ⟨90, _⟩ => ⟨S_, .f32⟩
  | .hbm, ⟨91, _⟩ => ⟨S10000, .f32⟩
  | .hbm, ⟨92, _⟩ => ⟨S10000, .f32⟩
  | .hbm, ⟨93, _⟩ => ⟨S10000x1, .f32⟩
  | .hbm, ⟨94, _⟩ => ⟨S10000x32, .f32⟩
  | .hbm, ⟨95, _⟩ => ⟨S10000x32, .f32⟩
  | _, _ => ⟨S10000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call1_cst : Ref sig .tc := ⟨.hbm, 64, rfl⟩
abbrev main_call1_v0 : Ref sig .tc := ⟨.hbm, 65, rfl⟩
abbrev main_v41 : Ref sig .tc := ⟨.hbm, 66, rfl⟩
abbrev main_v42 : Ref sig .tc := ⟨.hbm, 67, rfl⟩
abbrev main_call2_cst : Ref sig .tc := ⟨.hbm, 68, rfl⟩
abbrev main_call2_v0 : Ref sig .tc := ⟨.hbm, 69, rfl⟩
abbrev main_v43 : Ref sig .tc := ⟨.hbm, 70, rfl⟩
abbrev main_c_9 : Ref sig .tc := ⟨.hbm, 71, rfl⟩
abbrev main_v44 : Ref sig .tc := ⟨.hbm, 72, rfl⟩
abbrev main_v45 : Ref sig .tc := ⟨.hbm, 73, rfl⟩
abbrev main_c_10 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_11 : Ref sig .tc := ⟨.hbm, 80, rfl⟩
abbrev main_v51 : Ref sig .tc := ⟨.hbm, 81, rfl⟩
abbrev main_cst_12 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_13 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_14 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩

abbrev nD : Nat := 1
abbrev τ : Topo := Topo.v7x

variable {F : FTy → Type} [FloatOps F]

class Facts₀ : Prop where
  bcast_S_S159854 : S_.BroadcastsInDim S159854 (![] : Fin 0 → Fin S159854.rank)
  bcast_S_S79927 : S_.BroadcastsInDim S79927 (![] : Fin 0 → Fin S79927.rank)
  bcast_S159854_S159854x1_0 : S159854.BroadcastsInDim S159854x1 (![0] : Fin 1 → Fin S159854x1.rank)
  bcast_S_S79927x32 : S_.BroadcastsInDim S79927x32 (![] : Fin 0 → Fin S79927x32.rank)
  bcast_S79927_S79927x1_0 : S79927.BroadcastsInDim S79927x1 (![0] : Fin 1 → Fin S79927x1.rank)
  bcast_S79927x1_S79927x32_0_1 : S79927x1.BroadcastsInDim S79927x32 (![0, 1] : Fin 2 → Fin S79927x32.rank)
  bcast_S_S2636206 : S_.BroadcastsInDim S2636206 (![] : Fin 0 → Fin S2636206.rank)
  bcast_S2636206_S2636206x1_0 : S2636206.BroadcastsInDim S2636206x1 (![0] : Fin 1 → Fin S2636206x1.rank)
  bcast_S_S2636206x32 : S_.BroadcastsInDim S2636206x32 (![] : Fin 0 → Fin S2636206x32.rank)
  bcast_S_S10000 : S_.BroadcastsInDim S10000 (![] : Fin 0 → Fin S10000.rank)
  bcast_S_S10000x32 : S_.BroadcastsInDim S10000x32 (![] : Fin 0 → Fin S10000x32.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  scatter_S79927_S159854x1_S159854_n_0_0_1_wf : ScatterDims.WF S79927 S159854x1 S159854 [] [0] [0] 1
  scatter_S79927x32_S159854x1_S159854x32_1_0_0_1_wf : ScatterDims.WF S79927x32 S159854x1 S159854x32 [1] [0] [0] 1
  gather_S10000x32_S2636206x1_S2636206x32_1_0_n_n_0_1_132_wf : GatherDims.WF S10000x32 S2636206x1 S2636206x32 [1] [0] [] [0] [] 1 ![1, 32]
  gather_S79927x32_S2636206x1_S2636206x32_1_0_n_n_0_1_132_wf : GatherDims.WF S79927x32 S2636206x1 S2636206x32 [1] [0] [] [0] [] 1 ![1, 32]
  dot_S2636206x32_S32x32_S2636206x32_1_0_0_1_n_n_wf : DotDims.WF S2636206x32 S32x32 S2636206x32 [1] [0] [0] [1] [] []
  scatter_S79927_S2636206x1_S2636206_n_0_0_1_wf : ScatterDims.WF S79927 S2636206x1 S2636206 [] [0] [0] 1
  scatter_S79927x32_S2636206x1_S2636206x32_1_0_0_1_wf : ScatterDims.WF S79927x32 S2636206x1 S2636206x32 [1] [0] [0] 1
  dot_S79927x32_S32x32_S79927x32_1_0_0_1_n_n_wf : DotDims.WF S79927x32 S32x32 S79927x32 [1] [0] [0] [1] [] []
  gather_S79927x32_S159854x1_S159854x32_1_0_n_n_0_1_132_wf : GatherDims.WF S79927x32 S159854x1 S159854x32 [1] [0] [] [0] [] 1 ![1, 32]
  scatter_S10000_S2636206x1_S2636206_n_0_0_1_wf : ScatterDims.WF S10000 S2636206x1 S2636206 [] [0] [0] 1
  scatter_S10000x32_S2636206x1_S2636206x32_1_0_0_1_wf : ScatterDims.WF S10000x32 S2636206x1 S2636206x32 [1] [0] [0] 1

variable [Facts₀]

def scatter_S79927_S159854x1_S159854_n_0_0_1 : ScatterDims S79927 S159854x1 S159854 where
  updateWindowDims := []
  insertedWindowDims := [0]
  scatterDimsToOperandDims := [0]
  indexVectorDim := 1
  wf := scatter_S79927_S159854x1_S159854_n_0_0_1_wf
def scatter_S79927x32_S159854x1_S159854x32_1_0_0_1 : ScatterDims S79927x32 S159854x1 S159854x32 where
  updateWindowDims := [1]
  insertedWindowDims := [0]
  scatterDimsToOperandDims := [0]
  indexVectorDim := 1
  wf := scatter_S79927x32_S159854x1_S159854x32_1_0_0_1_wf
def gather_S10000x32_S2636206x1_S2636206x32_1_0_n_n_0_1_132 : GatherDims S10000x32 S2636206x1 S2636206x32 where
  offsetDims := [1]
  collapsedSliceDims := [0]
  operandBatchingDims := []
  startIndicesBatchingDims := []
  startIndexMap := [0]
  indexVectorDim := 1
  sliceSizes := ![1, 32]
  wf := gather_S10000x32_S2636206x1_S2636206x32_1_0_n_n_0_1_132_wf
def gather_S79927x32_S2636206x1_S2636206x32_1_0_n_n_0_1_132 : GatherDims S79927x32 S2636206x1 S2636206x32 where
  offsetDims := [1]
  collapsedSliceDims := [0]
  operandBatchingDims := []
  startIndicesBatchingDims := []
  startIndexMap := [0]
  indexVectorDim := 1
  sliceSizes := ![1, 32]
  wf := gather_S79927x32_S2636206x1_S2636206x32_1_0_n_n_0_1_132_wf
def dot_S2636206x32_S32x32_S2636206x32_1_0_0_1_n_n : DotDims S2636206x32 S32x32 S2636206x32 where
  lhsContracting := [1]
  rhsContracting := [0]
  lhsNonContracting := [0]
  rhsNonContracting := [1]
  lhsBatch := []
  rhsBatch := []
  wf := dot_S2636206x32_S32x32_S2636206x32_1_0_0_1_n_n_wf
def scatter_S79927_S2636206x1_S2636206_n_0_0_1 : ScatterDims S79927 S2636206x1 S2636206 where
  updateWindowDims := []
  insertedWindowDims := [0]
  scatterDimsToOperandDims := [0]
  indexVectorDim := 1
  wf := scatter_S79927_S2636206x1_S2636206_n_0_0_1_wf
def scatter_S79927x32_S2636206x1_S2636206x32_1_0_0_1 : ScatterDims S79927x32 S2636206x1 S2636206x32 where
  updateWindowDims := [1]
  insertedWindowDims := [0]
  scatterDimsToOperandDims := [0]
  indexVectorDim := 1
  wf := scatter_S79927x32_S2636206x1_S2636206x32_1_0_0_1_wf
def dot_S79927x32_S32x32_S79927x32_1_0_0_1_n_n : DotDims S79927x32 S32x32 S79927x32 where
  lhsContracting := [1]
  rhsContracting := [0]
  lhsNonContracting := [0]
  rhsNonContracting := [1]
  lhsBatch := []
  rhsBatch := []
  wf := dot_S79927x32_S32x32_S79927x32_1_0_0_1_n_n_wf
def gather_S79927x32_S159854x1_S159854x32_1_0_n_n_0_1_132 : GatherDims S79927x32 S159854x1 S159854x32 where
  offsetDims := [1]
  collapsedSliceDims := [0]
  operandBatchingDims := []
  startIndicesBatchingDims := []
  startIndexMap := [0]
  indexVectorDim := 1
  sliceSizes := ![1, 32]
  wf := gather_S79927x32_S159854x1_S159854x32_1_0_n_n_0_1_132_wf
def scatter_S10000_S2636206x1_S2636206_n_0_0_1 : ScatterDims S10000 S2636206x1 S2636206 where
  updateWindowDims := []
  insertedWindowDims := [0]
  scatterDimsToOperandDims := [0]
  indexVectorDim := 1
  wf := scatter_S10000_S2636206x1_S2636206_n_0_0_1_wf
def scatter_S10000x32_S2636206x1_S2636206x32_1_0_0_1 : ScatterDims S10000x32 S2636206x1 S2636206x32 where
  updateWindowDims := [1]
  insertedWindowDims := [0]
  scatterDimsToOperandDims := [0]
  indexVectorDim := 1
  wf := scatter_S10000x32_S2636206x1_S2636206x32_1_0_0_1_wf

class Facts : Prop extends Facts₀ where

variable [Facts]
-- ==== Proof.KernelRun.lean ====
/-
  The kernel program's run with its two results named.

  The program is a sequence of host stretches and two kernel launches. The contents of every buffer at each boundary of
  that sequence are a fold from the launch memory: a host stretch applies its operations, a launch replaces its arrays by
  what its write-backs leave and keeps every other buffer. Every weakly fair execution terminates in a state whose
  buffers hold the last boundary's contents; here that is read off at the two result buffers as well as at the
  argument arrays, which end as launched.
-/
import proofs.«123437_j25786983645443_2_alg».proof.Proof.Gen.KernelIdeal.Frame

set_option maxRecDepth 16384

noncomputable section

namespace Cert.LineGraph.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with each result buffer at the last boundary's contents
    and the argument arrays as launched. -/
theorem run_named : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_v51) = W11 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)), h c _ (mem_uc main_v51 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.LineGraph.KernelRun

end
-- ==== Proof.EntryFirst.lean ====
/-
  The arrays the first launch is entered with, as the reference's stages of the argument arrays.

  Before the first launch the kernel program applies the reference's own operations: the per-pair averages of the edge
  attributes (new_x), the node features gathered along the line-graph edges (x[node]) and the averages gathered along
  them (new_x[src]). It then pads the two gathered arrays below with rows of a constant, up to a whole number of blocks.
  The weight matrices and index arrays are still the arguments.
-/
import proofs.«123437_j25786983645443_2_alg».proof.Proof.Gen.KernelIdeal.Frame
import proofs.«123437_j25786983645443_2_alg».proof.Proof.Gen.ReferenceIdeal.Read
import Idealize.ShloMosaic.Lib.StableHlo.Run

set_option maxRecDepth 16384

noncomputable section

namespace Cert.LineGraph.KernelValue

open Idealize.ShloMosaic Idealize.ShloMosaic.TcCoe Idealize.SL.Sem Idealize.ShloMosaic.StableHlo
open Cert.KernelIdeal Cert.KernelIdeal.Gen Cert.LineGraph

variable (m : (ℓ : Loc nD τ sig) → Buf (Elt Ideal) ℓ) (ρ : Dev nD → PrngReg) (c : Dev nD)

/-! ## The arrays the first launch is entered with -/

set_option maxHeartbeats 8000000 in
/-- x[node]: the node features gathered along the line-graph edges. -/
theorem entry_attr : W4 m ρ c (Proc.devRef .tc main_v16) = Cert.ReferenceIdeal.Read.val_main_v16 (F := Ideal) (m ((c : Thread nD τ).loc main_arg0)) (m ((c : Thread nD τ).loc main_arg8)) := by
  after_results_simp
  rfl

set_option maxHeartbeats 8000000 in
/-- new_x[src]: the averaged edge features gathered along the line-graph edges. -/
theorem entry_src : W4 m ρ c (Proc.devRef .tc main_v23) = Cert.ReferenceIdeal.Read.val_main_v23 (F := Ideal) (m ((c : Thread nD τ).loc main_arg1)) (m ((c : Thread nD τ).loc main_arg5)) (m ((c : Thread nD τ).loc main_arg6)) := by
  after_results_simp
  rfl

set_option maxHeartbeats 8000000 in
/-- new_x: the averaged edge features. -/
theorem entry_newx : W4 m ρ c (Proc.devRef .tc main_v9) = Cert.ReferenceIdeal.Read.val_main_v9 (F := Ideal) (m ((c : Thread nD τ).loc main_arg1)) (m ((c : Thread nD τ).loc main_arg5)) := by
  after_results_simp
  rfl

set_option maxHeartbeats 8000000 in
/-- The first row operand: new_x[src] padded below. -/
theorem entry_src_pad : W4 m ρ c (Proc.devRef .tc main_v24)
    = pad S2637312x32 ![0, 0] ![1106, 0] ![0, 0] (Cert.ReferenceIdeal.Read.val_main_v23 (F := Ideal) (m ((c : Thread nD τ).loc main_arg1)) (m ((c : Thread nD τ).loc main_arg5)) (m ((c : Thread nD τ).loc main_arg6)))
        (W4 m ρ c (Proc.devRef .tc main_call0_v0)) pads_S2636206x32_S2637312x32_011060_000 h_S_ := by
  after_results_simp
  rfl

set_option maxHeartbeats 8000000 in
/-- The second row operand: x[node] padded below. -/
theorem entry_attr_pad : W4 m ρ c (Proc.devRef .tc main_v25)
    = pad S2637312x32 ![0, 0] ![1106, 0] ![0, 0] (Cert.ReferenceIdeal.Read.val_main_v16 (F := Ideal) (m ((c : Thread nD τ).loc main_arg0)) (m ((c : Thread nD τ).loc main_arg8)))
        (W4 m ρ c (Proc.devRef .tc main_call1_v0)) pads_S2636206x32_S2637312x32_011060_000 h_S_ := by
  after_results_simp
  rfl

set_option maxHeartbeats 8000000 in
theorem entry_arg2 : W4 m ρ c (Proc.devRef .tc main_arg2) = (m ((c : Thread nD τ).loc main_arg2)) := by after_results_simp
set_option maxHeartbeats 8000000 in
theorem entry_arg3 : W4 m ρ c (Proc.devRef .tc main_arg3) = (m ((c : Thread nD τ).loc main_arg3)) := by after_results_simp
set_option maxHeartbeats 8000000 in
theorem entry_arg4 : W4 m ρ c (Proc.devRef .tc main_arg4) = (m ((c : Thread nD τ).loc main_arg4)) := by after_results_simp
set_option maxHeartbeats 8000000 in
theorem entry_arg7 : W4 m ρ c (Proc.devRef .tc main_arg7) = (m ((c : Thread nD τ).loc main_arg7)) := by after_results_simp
set_option maxHeartbeats 8000000 in
theorem entry_arg8 : W4 m ρ c (Proc.devRef .tc main_arg8) = (m ((c : Thread nD τ).loc main_arg8)) := by after_results_simp
set_option maxHeartbeats 8000000 in
theorem entry_arg9 : W4 m ρ c (Proc.devRef .tc main_arg9) = (m ((c : Thread nD τ).loc main_arg9)) := by after_results_simp

end Cert.LineGraph.KernelValue

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«123437_j25786983645443_2_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.LibPadRows.lean ====
/-
  Rows of padding below an array, and the first rows cut off again.

  A two-axis array padded only below — no padding in front, none between entries, none on the columns — holds the array in
  its first rows, whatever the padding value is: entry (p, c) of the padded array, for p a row of the original, is entry
  (p, c) of the original. The slice of the first n rows of a taller array, at zero offsets, reads the same row and column.
  Together: the first n rows of any function of the padded array that reads row p of its argument only are that function
  of the original. Generic in the row counts, the column count and the element type.
-/
import Idealize.ShloMosaic.Lib.KernelVsHost
import Idealize.ShloMosaic.Lib.Pipeline.Value
import Idealize.ShloMosaic.Lib.ValueIdx

namespace Cert.LibPadRows

open Idealize.ShloMosaic Idealize.ShloMosaic.ValueIdx

variable {n N k : Nat} {u : Shape} {α : Type}

/-- An array padded below holds the array in its first rows: entry (p, c) of the padded array is entry (p, c) of the array,
    for every row p of the array. -/
theorem pad_rows_apply (hi : Fin 2 → Nat) (X : (⟨2, ![n, k]⟩ : Shape).Idx → α) (v : u.Idx → α)
    (h : (⟨2, ![n, k]⟩ : Shape).Pads ![0, 0] hi ![0, 0] ⟨2, ![N, k]⟩) (hu : 0 < u.numel)
    (p : Fin n) (hp : p.val < N) (c : Fin k) :
    pad ⟨2, ![N, k]⟩ ![0, 0] hi ![0, 0] X v h hu (ix2 ⟨p.val, hp⟩ c) = X (ix2 p c) := by
  refine pad_apply_of_inside ![0, 0] hi ![0, 0] X v h hu (ix2 ⟨p.val, hp⟩ c) (ix2 p c) fun a => ?_
  match a with
  | ⟨0, _⟩ => show p.val = 0 + p.val * (0 + 1); omega
  | ⟨1, _⟩ => show c.val = 0 + c.val * (0 + 1); omega

/-- The slice of the first n rows, at zero offsets, reads the same row and column. -/
theorem slice_rows_apply (Y : (⟨2, ![N, k]⟩ : Shape).Idx → α) (h : (⟨2, ![N, k]⟩ : Shape).Slices ![0, 0] ⟨2, ![n, k]⟩)
    (p : Fin n) (hp : p.val < N) (q : Fin k) :
    extractStridedSlice ⟨2, ![n, k]⟩ ![0, 0] Y h (ix2 p q) = Y (ix2 ⟨p.val, hp⟩ q) := by
  refine extractStridedSlice_apply ![0, 0] Y h (ix2 p q) (ix2 ⟨p.val, hp⟩ q) fun a => ?_
  match a with
  | ⟨0, _⟩ => show p.val = 0 + p.val; omega
  | ⟨1, _⟩ => show q.val = 0 + q.val; omega

/-- A slice of the first n rows exists only of an array with at least n rows. -/
theorem rows_le (h : (⟨2, ![N, k]⟩ : Shape).Slices ![0, 0] ⟨2, ![n, k]⟩) : n ≤ N := by
  have h0 : (![0, 0] : Fin 2 → Nat) 0 + (⟨2, ![n, k]⟩ : Shape).size (Fin.cast h.1 0) ≤ (⟨2, ![N, k]⟩ : Shape).size 0 := h.2 0
  have e : (⟨2, ![n, k]⟩ : Shape).size (Fin.cast h.1 0) = n := rfl
  have e' : (⟨2, ![N, k]⟩ : Shape).size 0 = N := rfl
  have z : (![0, 0] : Fin 2 → Nat) 0 = 0 := rfl
  omega

end Cert.LibPadRows
-- ==== Proof.RowBlocks.lean ====
/-
  Three row-wise layers over arrays of 32 columns, at the ideal values, and how they meet blocks of rows and rows of
  zero padding.

  For an n×32 array X and a 32×32 matrix W the product X·W has in row p only entries of row p of X. The three layers here
  are relu((A + B)·W), relu(B·W) and relu(X·W + G), relu being the maximum with zero entry by entry; each has in row p
  only entries of row p of its array operands. Two consequences are used:
  a block of consecutive rows of a layer is the layer of the same rows of the operands, and the first n rows of a
  layer of arrays padded below with further rows (whatever those rows hold) are the layer of the unpadded arrays.
-/
import proofs.«123437_j25786983645443_2_alg».proof.Proof.LibDenseProduct
import proofs.«123437_j25786983645443_2_alg».proof.Proof.LibPadRows
import Idealize.ShloMosaic.Lib.KernelVsHost
import Idealize.ShloMosaic.Lib.Pipeline.Value
import Idealize.ShloMosaic.Lib.ValueIdx

noncomputable section

namespace Cert.LineGraph

open Idealize.ShloMosaic Idealize.ShloMosaic.ValueIdx Cert.LibDenseProduct Cert.LibPadRows

/-- The maximum with zero, entry by entry. -/
def reluOf {s : Shape} (X : FVec Ideal s .f32) : FVec Ideal s .f32 :=
  fun i => max (X i) (Ideal.ofBits .f32 0x00000000#32)

/-- relu((A + B)·W). -/
def msgOf {n : Nat} (A B : FVec Ideal ⟨2, ![n, 32]⟩ .f32) (W : FVec Ideal ⟨2, ![32, 32]⟩ .f32) : FVec Ideal ⟨2, ![n, 32]⟩ .f32 :=
  reluOf (mm (addf A B) W)

/-- relu(B·W). -/
def attrOf {n : Nat} (B : FVec Ideal ⟨2, ![n, 32]⟩ .f32) (W : FVec Ideal ⟨2, ![32, 32]⟩ .f32) : FVec Ideal ⟨2, ![n, 32]⟩ .f32 :=
  reluOf (mm B W)

/-- relu(X·W + G). -/
def lineOf {n : Nat} (X : FVec Ideal ⟨2, ![n, 32]⟩ .f32) (W : FVec Ideal ⟨2, ![32, 32]⟩ .f32) (G : FVec Ideal ⟨2, ![n, 32]⟩ .f32) :
    FVec Ideal ⟨2, ![n, 32]⟩ .f32 :=
  reluOf (addf (mm X W) G)

/-! ## Rows -/

variable {r n : Nat}

/-- Row `p` of the small layer is row `P` of the large one when the small operands hold, in row `p`, row `P` of the large. -/
theorem msgOf_rows (A B : FVec Ideal ⟨2, ![n, 32]⟩ .f32) (W : FVec Ideal ⟨2, ![32, 32]⟩ .f32)
    (a b : FVec Ideal ⟨2, ![r, 32]⟩ .f32) (w : FVec Ideal ⟨2, ![32, 32]⟩ .f32) (hw : w = W)
    (p : Fin r) (P : Fin n) (q : Fin 32)
    (ha : ∀ c : Fin 32, a (ix2 p c) = A (ix2 P c)) (hb : ∀ c : Fin 32, b (ix2 p c) = B (ix2 P c)) :
    msgOf a b w (ix2 p q) = msgOf A B W (ix2 P q) := by
  subst hw
  show max (mm (addf a b) w (ix2 p q)) _ = max (mm (addf A B) w (ix2 P q)) _
  rw [mm_apply, mm_apply]
  simp only [addf_apply, ha, hb]

theorem attrOf_rows (B : FVec Ideal ⟨2, ![n, 32]⟩ .f32) (W : FVec Ideal ⟨2, ![32, 32]⟩ .f32)
    (b : FVec Ideal ⟨2, ![r, 32]⟩ .f32) (w : FVec Ideal ⟨2, ![32, 32]⟩ .f32) (hw : w = W)
    (p : Fin r) (P : Fin n) (q : Fin 32)
    (hb : ∀ c : Fin 32, b (ix2 p c) = B (ix2 P c)) :
    attrOf b w (ix2 p q) = attrOf B W (ix2 P q) := by
  subst hw
  show max (mm b w (ix2 p q)) _ = max (mm B w (ix2 P q)) _
  rw [mm_apply, mm_apply]
  simp only [hb]

theorem lineOf_rows (X : FVec Ideal ⟨2, ![n, 32]⟩ .f32) (W : FVec Ideal ⟨2, ![32, 32]⟩ .f32) (G : FVec Ideal ⟨2, ![n, 32]⟩ .f32)
    (x : FVec Ideal ⟨2, ![r, 32]⟩ .f32) (w : FVec Ideal ⟨2, ![32, 32]⟩ .f32) (g : FVec Ideal ⟨2, ![r, 32]⟩ .f32) (hw : w = W)
    (p : Fin r) (P : Fin n) (q : Fin 32)
    (hx : ∀ c : Fin 32, x (ix2 p c) = X (ix2 P c)) (hg : g (ix2 p q) = G (ix2 P q)) :
    lineOf x w g (ix2 p q) = lineOf X W G (ix2 P q) := by
  subst hw
  show max (mm x w (ix2 p q) + g (ix2 p q)) _ = max (mm X w (ix2 P q) + G (ix2 P q)) _
  rw [mm_apply, mm_apply, hg]
  simp only [hx]

/-! ## Rows of padding below, cut off again -/

section Padded
variable {N : Nat} {u : Shape}

theorem slice_msgOf_pad (hiA hiB : Fin 2 → Nat) (A B : FVec Ideal ⟨2, ![n, 32]⟩ .f32) (W : FVec Ideal ⟨2, ![32, 32]⟩ .f32)
    (va vb : u.Idx → Ideal .f32)
    (hA : (⟨2, ![n, 32]⟩ : Shape).Pads ![0, 0] hiA ![0, 0] ⟨2, ![N, 32]⟩)
    (hB : (⟨2, ![n, 32]⟩ : Shape).Pads ![0, 0] hiB ![0, 0] ⟨2, ![N, 32]⟩) (hu : 0 < u.numel)
    (h : (⟨2, ![N, 32]⟩ : Shape).Slices ![0, 0] ⟨2, ![n, 32]⟩) :
    extractStridedSlice ⟨2, ![n, 32]⟩ ![0, 0]
      (msgOf (pad ⟨2, ![N, 32]⟩ ![0, 0] hiA ![0, 0] A va hA hu) (pad ⟨2, ![N, 32]⟩ ![0, 0] hiB ![0, 0] B vb hB hu) W) h
      = msgOf A B W := by
  funext j
  obtain ⟨p, q, rfl⟩ : ∃ (p : Fin n) (q : Fin 32), j = ix2 p q := ⟨j 0, j 1, eq_ix2 j⟩
  have hp : p.val < N := lt_of_lt_of_le p.isLt (rows_le h)
  rw [slice_rows_apply _ h p hp q]
  exact (msgOf_rows _ _ W A B W rfl p ⟨p.val, hp⟩ q (fun c => (pad_rows_apply hiA A va hA hu p hp c).symm)
    (fun c => (pad_rows_apply hiB B vb hB hu p hp c).symm)).symm

theorem slice_attrOf_pad (hiB : Fin 2 → Nat) (B : FVec Ideal ⟨2, ![n, 32]⟩ .f32) (W : FVec Ideal ⟨2, ![32, 32]⟩ .f32)
    (vb : u.Idx → Ideal .f32)
    (hB : (⟨2, ![n, 32]⟩ : Shape).Pads ![0, 0] hiB ![0, 0] ⟨2, ![N, 32]⟩) (hu : 0 < u.numel)
    (h : (⟨2, ![N, 32]⟩ : Shape).Slices ![0, 0] ⟨2, ![n, 32]⟩) :
    extractStridedSlice ⟨2, ![n, 32]⟩ ![0, 0] (attrOf (pad ⟨2, ![N, 32]⟩ ![0, 0] hiB ![0, 0] B vb hB hu) W) h = attrOf B W := by
  funext j
  obtain ⟨p, q, rfl⟩ : ∃ (p : Fin n) (q : Fin 32), j = ix2 p q := ⟨j 0, j 1, eq_ix2 j⟩
  have hp : p.val < N := lt_of_lt_of_le p.isLt (rows_le h)
  rw [slice_rows_apply _ h p hp q]
  exact (attrOf_rows _ W B W rfl p ⟨p.val, hp⟩ q (fun c => (pad_rows_apply hiB B vb hB hu p hp c).symm)).symm

theorem slice_lineOf_pad (hiX hiG : Fin 2 → Nat) (X G : FVec Ideal ⟨2, ![n, 32]⟩ .f32) (W : FVec Ideal ⟨2, ![32, 32]⟩ .f32)
    (vx vg : u.Idx → Ideal .f32)
    (hX : (⟨2, ![n, 32]⟩ : Shape).Pads ![0, 0] hiX ![0, 0] ⟨2, ![N, 32]⟩)
    (hG : (⟨2, ![n, 32]⟩ : Shape).Pads ![0, 0] hiG ![0, 0] ⟨2, ![N, 32]⟩) (hu : 0 < u.numel)
    (h : (⟨2, ![N, 32]⟩ : Shape).Slices ![0, 0] ⟨2, ![n, 32]⟩) :
    extractStridedSlice ⟨2, ![n, 32]⟩ ![0, 0]
      (lineOf (pad ⟨2, ![N, 32]⟩ ![0, 0] hiX ![0, 0] X vx hX hu) W (pad ⟨2, ![N, 32]⟩ ![0, 0] hiG ![0, 0] G vg hG hu)) h
      = lineOf X W G := by
  funext j
  obtain ⟨p, q, rfl⟩ : ∃ (p : Fin n) (q : Fin 32), j = ix2 p q := ⟨j 0, j 1, eq_ix2 j⟩
  have hp : p.val < N := lt_of_lt_of_le p.isLt (rows_le h)
  rw [slice_rows_apply _ h p hp q]
  exact (lineOf_rows _ W _ X W G rfl p ⟨p.val, hp⟩ q (fun c => (pad_rows_apply hiX X vx hX hu p hp c).symm)
    (pad_rows_apply hiG G vg hG hu p hp q).symm).symm

end Padded

/-! ## The host's spelling of the three layers -/

section HostSpelling
variable {s0 : Shape}

/-- The host's relu: the maximum with a broadcast scalar zero. -/
theorem maximumf_bcast_zero {s : Shape} (X : FVec Ideal s .f32) (h : (⟨0, ![]⟩ : Shape).BroadcastsInDim s (![] : Fin 0 → Fin s.rank)) :
    maximumf X (broadcastInDim s ![] h (constant (F := Ideal) ⟨0, ![]⟩ .f32 0x00000000#32)) = reluOf X := by
  funext i
  rfl

theorem host_msgOf (A B : FVec Ideal ⟨2, ![n, 32]⟩ .f32) (W : FVec Ideal ⟨2, ![32, 32]⟩ .f32)
    (h : (⟨0, ![]⟩ : Shape).BroadcastsInDim ⟨2, ![n, 32]⟩ (![] : Fin 0 → Fin 2)) :
    maximumf (Host.dotGeneral (DotDims.plain n 32 32) none (addf A B) W)
      (broadcastInDim ⟨2, ![n, 32]⟩ ![] h (constant (F := Ideal) ⟨0, ![]⟩ .f32 0x00000000#32)) = msgOf A B W := by
  rw [maximumf_bcast_zero, dotGeneral_plain_eq]; rfl

theorem host_attrOf (B : FVec Ideal ⟨2, ![n, 32]⟩ .f32) (W : FVec Ideal ⟨2, ![32, 32]⟩ .f32)
    (h : (⟨0, ![]⟩ : Shape).BroadcastsInDim ⟨2, ![n, 32]⟩ (![] : Fin 0 → Fin 2)) :
    maximumf (Host.dotGeneral (DotDims.plain n 32 32) none B W)
      (broadcastInDim ⟨2, ![n, 32]⟩ ![] h (constant (F := Ideal) ⟨0, ![]⟩ .f32 0x00000000#32)) = attrOf B W := by
  rw [maximumf_bcast_zero, dotGeneral_plain_eq]; rfl

theorem host_lineOf (X G : FVec Ideal ⟨2, ![n, 32]⟩ .f32) (W : FVec Ideal ⟨2, ![32, 32]⟩ .f32)
    (h : (⟨0, ![]⟩ : Shape).BroadcastsInDim ⟨2, ![n, 32]⟩ (![] : Fin 0 → Fin 2)) :
    maximumf (addf (Host.dotGeneral (DotDims.plain n 32 32) none X W) G)
      (broadcastInDim ⟨2, ![n, 32]⟩ ![] h (constant (F := Ideal) ⟨0, ![]⟩ .f32 0x00000000#32)) = lineOf X W G := by
  rw [maximumf_bcast_zero, dotGeneral_plain_eq]; rfl

end HostSpelling

/-! ## The matrix unit's spelling -/

/-- The kernel's relu: the maximum with a splat scalar zero. -/
theorem maximumf_splat_zero {s : Shape} (X : FVec Ideal s .f32) :
    maximumf X (broadcast s (Scalar.ofBits (F := Ideal) .f32 0x00000000#32)) = reluOf X := by
  funext i
  rfl

end Cert.LineGraph

end
-- ==== Proof.Bodies.lean ====
/-
  What each kernel body leaves in its output blocks, as a layer of its input blocks.

  The first kernel's body adds its two row blocks, multiplies the sum by the first weight matrix on the matrix unit into
  a zero accumulator and takes the maximum with zero: relu((a + b)·w). Its second store is relu(b·w') of the second row
  block and the second weight matrix. The second kernel's body stores relu(x·w + g). The narrowing of the operands to
  bf16 is the identity at the ideal values, and a product into the zero accumulator is the plain matrix product.
-/
import proofs.«123437_j25786983645443_2_alg».proof.Proof.Gen.KernelIdeal.Frame
import proofs.«123437_j25786983645443_2_alg».proof.Proof.RowBlocks

noncomputable section

namespace Cert.LineGraph

open Idealize.ShloMosaic Idealize.ShloMosaic.ValueIdx Cert.LibDenseProduct
open Cert.KernelIdeal Cert.KernelIdeal.Gen

theorem zeros2 : (![0, 0] : Fin 2 → Nat) = fun _ => 0 := funext fun a => by fin_cases a <;> rfl

/-- The matrix unit's product of two blocks into the zero accumulator is the plain product. -/
theorem mxu_eq {φ₁ φ₂ : FTy} (a : FVec Ideal S4352x32 φ₁) (w : FVec Ideal S32x32 φ₂) :
    matmul dot_S4352x32_S32x32_S4352x32_1_0_0_1_n_n none a w (constant (F := Ideal) S4352x32 .f32 0x00000000#32) = mm a w :=
  matmul_plain_zero_eq (m := 4352) (k := 32) (n := 32) none a w

theorem pay_msg (x0 x1 : Vec Ideal S4352x32 .f32) (x2 : Vec Ideal S32x32 .f32) :
    k0_pay1 (F := Ideal) x0 x1 x2 = msgOf (n := 4352) x0 x1 x2 := by
  unfold k0_pay1
  simp only [shapeCast_self]
  refine (maximumf_splat_zero _).trans ?_
  exact congrArg reluOf (mxu_eq _ _)

theorem pay_attr (x1 : Vec Ideal S4352x32 .f32) (x3 : Vec Ideal S32x32 .f32) :
    k0_pay2 (F := Ideal) x1 x3 = attrOf (n := 4352) x1 x3 := by
  unfold k0_pay2
  simp only [shapeCast_self]
  refine (maximumf_splat_zero _).trans ?_
  exact congrArg reluOf (mxu_eq _ _)

theorem pay_line (x0 : Vec Ideal S4352x32 .f32) (x2 : Vec Ideal S32x32 .f32) (x1 : Vec Ideal S4352x32 .f32) :
    k1_pay1 (F := Ideal) x0 x2 x1 = lineOf (n := 4352) x0 x2 x1 := by
  unfold k1_pay1
  simp only [shapeCast_self]
  refine (maximumf_splat_zero _).trans ?_
  exact congrArg (fun z => reluOf (addf z x1)) (mxu_eq _ _)

/-- The first kernel's first output block: relu((a + b)·w) of its row blocks and its first weight block. -/
theorem out_msg (x0 x1 : Vec Ideal S4352x32 .f32) (x2 x3 : Vec Ideal S32x32 .f32) :
    out0_4 (F := Ideal) x0 x1 x2 x3 = msgOf (n := 4352) x0 x1 x2 := by
  unfold out0_4
  rw [View.canon_unit_zero zeros2]
  simp only [View.ld_unit_zero (S := S4352x32) zeros2, View.ld_unit_zero (S := S32x32) zeros2]
  exact pay_msg x0 x1 x2

/-- Its second output block: relu(b·w') of the second row block and the second weight block. -/
theorem out_attr (x0 x1 : Vec Ideal S4352x32 .f32) (x2 x3 : Vec Ideal S32x32 .f32) :
    out0_5 (F := Ideal) x0 x1 x2 x3 = attrOf (n := 4352) x1 x3 := by
  unfold out0_5
  rw [View.canon_unit_zero zeros2]
  simp only [View.ld_unit_zero (S := S4352x32) zeros2, View.ld_unit_zero (S := S32x32) zeros2]
  exact pay_attr x1 x3

/-- The second kernel's output block: relu(x·w + g). -/
theorem out_line (x0 x1 : Vec Ideal S4352x32 .f32) (x2 : Vec Ideal S32x32 .f32) :
    out1_3 (F := Ideal) x0 x1 x2 = lineOf (n := 4352) x0 x2 x1 := by
  unfold out1_3
  rw [View.canon_unit_zero zeros2]
  simp only [View.ld_unit_zero (S := S4352x32) zeros2, View.ld_unit_zero (S := S32x32) zeros2]
  exact pay_line x0 x2 x1

end Cert.LineGraph

end
-- ==== Proof.Region0.lean ====
/-
  The first launch: what its two output arrays hold when it ends, as whole-array layers of the arrays it was entered with.

  The grid has 606 points. At point t each of the two row operands and each of the two outputs has the block of rows
  4352·t … 4352·t + 4351 (all 32 columns), and both weight operands their one block, the whole matrix. The body leaves in
  the first output's block relu((a + b)·w) of the row blocks and in the second relu(b·w'), and a row of these layers reads
  the same row of the operands only, so what point t writes back is block t of the layer of the whole arrays. The 606 blocks
  tile the 2637312 rows, so the arrays end holding the layers.
-/
import proofs.«123437_j25786983645443_2_alg».proof.Proof.Bodies
import Idealize.ShloMosaic.Lib.Pipeline.Value

set_option maxRecDepth 16384

noncomputable section

namespace Cert.LineGraph.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LineGraph

variable (V : (c : Dev nD) → (b : Ref sig .tc) → Buf (Elt Ideal) ((c : Thread nD τ).loc b))

/-- The printed index maps over the grid: the row windows are at block row t, column block 0; the weights at block (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem rowLt (t : Fin cfg0.N) (p : Fin 4352) : t.val * 4352 + p.val < 2637312 := by
  have h1 : t.val < 606 := lt_of_lt_of_eq t.isLt N_0
  have h2 := p.isLt
  omega

/-- Entry (p, q) of a row window's block at point t is entry (4352·t + p, q) of its array. -/
theorem emb0 (t : Fin cfg0.N) (p : Fin 4352) (q : Fin 32) :
    ((cfg0.win 0).blk t).view.emb (ix2 p q) = ix2 (⟨t.val * 4352 + p.val, rowLt t p⟩ : Fin 2637312) q := by
  obtain ⟨e00, e01, e10, e11, e20, e21, e30, e31, e40, e41, e50, e51⟩ := idx t
  funext a; apply Fin.ext
  match a with
  | ⟨0, _⟩ => show win0_0.index t (0 : Fin 2) * 4352 + 1 * p.val = t.val * 4352 + p.val; omega
  | ⟨1, _⟩ => show win0_0.index t (1 : Fin 2) * 32 + 1 * q.val = q.val; omega
theorem emb1 (t : Fin cfg0.N) (p : Fin 4352) (q : Fin 32) :
    ((cfg0.win 1).blk t).view.emb (ix2 p q) = ix2 (⟨t.val * 4352 + p.val, rowLt t p⟩ : Fin 2637312) q := by
  obtain ⟨e00, e01, e10, e11, e20, e21, e30, e31, e40, e41, e50, e51⟩ := idx t
  funext a; apply Fin.ext
  match a with
  | ⟨0, _⟩ => show win0_1.index t (0 : Fin 2) * 4352 + 1 * p.val = t.val * 4352 + p.val; omega
  | ⟨1, _⟩ => show win0_1.index t (1 : Fin 2) * 32 + 1 * q.val = q.val; omega
theorem emb4 (t : Fin cfg0.N) (p : Fin 4352) (q : Fin 32) :
    ((cfg0.win 4).blk t).view.emb (ix2 p q) = ix2 (⟨t.val * 4352 + p.val, rowLt t p⟩ : Fin 2637312) q := by
  obtain ⟨e00, e01, e10, e11, e20, e21, e30, e31, e40, e41, e50, e51⟩ := idx t
  funext a; apply Fin.ext
  match a with
  | ⟨0, _⟩ => show win0_4.index t (0 : Fin 2) * 4352 + 1 * p.val = t.val * 4352 + p.val; omega
  | ⟨1, _⟩ => show win0_4.index t (1 : Fin 2) * 32 + 1 * q.val = q.val; omega
theorem emb5 (t : Fin cfg0.N) (p : Fin 4352) (q : Fin 32) :
    ((cfg0.win 5).blk t).view.emb (ix2 p q) = ix2 (⟨t.val * 4352 + p.val, rowLt t p⟩ : Fin 2637312) q := by
  obtain ⟨e00, e01, e10, e11, e20, e21, e30, e31, e40, e41, e50, e51⟩ := idx t
  funext a; apply Fin.ext
  match a with
  | ⟨0, _⟩ => show win0_5.index t (0 : Fin 2) * 4352 + 1 * p.val = t.val * 4352 + p.val; omega
  | ⟨1, _⟩ => show win0_5.index t (1 : Fin 2) * 32 + 1 * q.val = q.val; omega
/-- A weight window's one block is the whole matrix. -/
theorem emb2 (t : Fin cfg0.N) (y : S32x32.Idx) : ((cfg0.win 2).blk t).view.emb y = y := by
  obtain ⟨e00, e01, e10, e11, e20, e21, e30, e31, e40, e41, e50, e51⟩ := idx t
  funext a; apply Fin.ext
  match a with
  | ⟨0, _⟩ => show win0_2.index t (0 : Fin 2) * 32 + 1 * (y 0).val = (y 0).val; omega
  | ⟨1, _⟩ => show win0_2.index t (1 : Fin 2) * 32 + 1 * (y 1).val = (y 1).val; omega
theorem emb3 (t : Fin cfg0.N) (y : S32x32.Idx) : ((cfg0.win 3).blk t).view.emb y = y := by
  obtain ⟨e00, e01, e10, e11, e20, e21, e30, e31, e40, e41, e50, e51⟩ := idx t
  funext a; apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega

theorem blk0 (c : Dev nD) (t : Fin cfg0.N) (p : Fin 4352) (q : Fin 32) :
    iblk0 V c 0 t (ix2 p q) = V c main_v24 (ix2 (⟨t.val * 4352 + p.val, rowLt t p⟩ : Fin 2637312) q) :=
  congrArg (V c main_v24) (emb0 t p q)
theorem blk1 (c : Dev nD) (t : Fin cfg0.N) (p : Fin 4352) (q : Fin 32) :
    iblk0 V c 1 t (ix2 p q) = V c main_v25 (ix2 (⟨t.val * 4352 + p.val, rowLt t p⟩ : Fin 2637312) q) :=
  congrArg (V c main_v25) (emb1 t p q)
theorem blk2 (c : Dev nD) (t : Fin cfg0.N) : iblk0 V c 2 t = V c main_arg2 :=
  funext fun y => congrArg (V c main_arg2) (emb2 t y)
theorem blk3 (c : Dev nD) (t : Fin cfg0.N) : iblk0 V c 3 t = V c main_arg4 :=
  funext fun y => congrArg (V c main_arg4) (emb3 t y)

/-- What point t writes back to the first output is block t of relu((A + B)·W) of the whole arrays. -/
theorem flushed_msg (c : Dev nD) (t : Fin cfg0.N) :
    (dat0 (F := Ideal) V c).flushed 4 t = ((cfg0.win 4).blk t).view.read (Elt Ideal)
      (msgOf (n := 2637312) (V c main_v24) (V c main_v25) (V c main_arg2)) := by
  show (cfg0.win 4).cut (grid0.coords t) ((dat0 V c).after 4 t) = _
  rw [after0_4, out_msg]
  funext j
  obtain ⟨p, q, rfl⟩ : ∃ (p : Fin 4352) (q : Fin 32), j = ix2 p q := ⟨j 0, j 1, eq_ix2 j⟩
  refine (msgOf_rows (V c main_v24) (V c main_v25) (V c main_arg2) (iblk0 V c 0 t) (iblk0 V c 1 t) (iblk0 V c 2 t)
    (blk2 V c t) p ⟨t.val * 4352 + p.val, rowLt t p⟩ q (fun k => blk0 V c t p k) (fun k => blk1 V c t p k)).trans ?_
  exact congrArg (msgOf (n := 2637312) (V c main_v24) (V c main_v25) (V c main_arg2)) (emb4 t p q).symm

/-- What point t writes back to the second output is block t of relu(B·W'). -/
theorem flushed_attr (c : Dev nD) (t : Fin cfg0.N) :
    (dat0 (F := Ideal) V c).flushed 5 t = ((cfg0.win 5).blk t).view.read (Elt Ideal)
      (attrOf (n := 2637312) (V c main_v25) (V c main_arg4)) := by
  show (cfg0.win 5).cut (grid0.coords t) ((dat0 V c).after 5 t) = _
  rw [after0_5, out_attr]
  funext j
  obtain ⟨p, q, rfl⟩ : ∃ (p : Fin 4352) (q : Fin 32), j = ix2 p q := ⟨j 0, j 1, eq_ix2 j⟩
  refine (attrOf_rows (V c main_v25) (V c main_arg4) (iblk0 V c 1 t) (iblk0 V c 3 t)
    (blk3 V c t) p ⟨t.val * 4352 + p.val, rowLt t p⟩ q (fun k => blk1 V c t p k)).trans ?_
  exact congrArg (attrOf (n := 2637312) (V c main_v25) (V c main_arg4)) (emb5 t p q).symm

/-- An index of an output array is in point t's block iff each coordinate is in the block's range on its axis. -/
theorem mem_blk4 (t : Fin cfg0.N) (i : S2637312x32.Idx) :
    i ∈ ((cfg0.win 4).blk t).view.set ↔ ∀ a : Fin 2, win0_4.index t a * S4352x32.size a ≤ (i a).val ∧ (i a).val < win0_4.index t a * S4352x32.size a + S4352x32.size a := by
  show i ∈ ((View.whole main_v26_0).slice (win0_4.rect t)).set ↔ _
  rw [View.set_slice_whole, Rect.mem_set_unit]
  exact Iff.rfl
theorem mem_blk5 (t : Fin cfg0.N) (i : S2637312x32.Idx) :
    i ∈ ((cfg0.win 5).blk t).view.set ↔ ∀ a : Fin 2, win0_5.index t a * S4352x32.size a ≤ (i a).val ∧ (i a).val < win0_5.index t a * S4352x32.size a + S4352x32.size a := by
  show i ∈ ((View.whole main_v26_1).slice (win0_5.rect t)).set ↔ _
  rw [View.set_slice_whole, Rect.mem_set_unit]
  exact Iff.rfl

/-- The point whose block holds row r is r / 4352. -/
def pointOf (i : S2637312x32.Idx) : Fin cfg0.N :=
  ⟨(i 0).val / 4352, by
    have h : (i 0).val < 2637312 := (i 0).isLt
    rw [show cfg0.N = 606 from N_0]; omega⟩

theorem cover4 (i : S2637312x32.Idx) : ∃ t : Fin cfg0.N, (cfg0.win 4).flush t = true ∧ i ∈ ((cfg0.win 4).blk t).view.set := by
  have h0 : (i 0).val < 2637312 := (i 0).isLt
  have h1 : (i 1).val < 32 := (i 1).isLt
  refine ⟨pointOf i, flush0_4 _, ?_⟩
  rw [mem_blk4]
  obtain ⟨e00, e01, e10, e11, e20, e21, e30, e31, e40, e41, e50, e51⟩ := idx (pointOf i)
  have ht : (pointOf i).val = (i 0).val / 4352 := rfl
  intro a
  match a with
  | ⟨0, _⟩ => show win0_4.index (pointOf i) (0 : Fin 2) * 4352 ≤ (i 0).val ∧ (i 0).val < win0_4.index (pointOf i) (0 : Fin 2) * 4352 + 4352; omega
  | ⟨1, _⟩ => show win0_4.index (pointOf i) (1 : Fin 2) * 32 ≤ (i 1).val ∧ (i 1).val < win0_4.index (pointOf i) (1 : Fin 2) * 32 + 32; omega

theorem cover5 (i : S2637312x32.Idx) : ∃ t : Fin cfg0.N, (cfg0.win 5).flush t = true ∧ i ∈ ((cfg0.win 5).blk t).view.set := by
  have h0 : (i 0).val < 2637312 := (i 0).isLt
  have h1 : (i 1).val < 32 := (i 1).isLt
  refine ⟨pointOf i, flush0_5 _, ?_⟩
  rw [mem_blk5]
  obtain ⟨e00, e01, e10, e11, e20, e21, e30, e31, e40, e41, e50, e51⟩ := idx (pointOf i)
  have ht : (pointOf i).val = (i 0).val / 4352 := rfl
  intro a
  match a with
  | ⟨0, _⟩ => show win0_5.index (pointOf i) (0 : Fin 2) * 4352 ≤ (i 0).val ∧ (i 0).val < win0_5.index (pointOf i) (0 : Fin 2) * 4352 + 4352; omega
  | ⟨1, _⟩ => show win0_5.index (pointOf i) (1 : Fin 2) * 32 ≤ (i 1).val ∧ (i 1).val < win0_5.index (pointOf i) (1 : Fin 2) * 32 + 32; omega

/-- The first output array after the launch: relu((A + B)·W) of the arrays the launch was entered with. -/
theorem arr_msg (c : Dev nD) :
    (dat0 (F := Ideal) V c).arrAt 4 cfg0.N = msgOf (n := 2637312) (V c main_v24) (V c main_v25) (V c main_arg2) :=
  (dat0 V c).arrAt_eq_of_cover 4 _ (fun t _ => flushed_msg V c t) cover4

/-- The second output array after the launch: relu(B·W'). -/
theorem arr_attr (c : Dev nD) :
    (dat0 (F := Ideal) V c).arrAt 5 cfg0.N = attrOf (n := 2637312) (V c main_v25) (V c main_arg4) :=
  (dat0 V c).arrAt_eq_of_cover 5 _ (fun t _ => flushed_attr V c t) cover5

end Cert.LineGraph.Region0

end
-- ==== Proof.ExitFirst.lean ====
/-
  What the first launch leaves, cut back to the unpadded rows, as the reference's two layers.

  The launch's outputs are relu((A + B)·W) and relu(B·W') of the padded arrays it was entered with. A row of either layer
  reads the same row of its operands only, so the first 2636206 rows are the layers of the unpadded arrays: the reference's
  messages relu((new_x[src] + x[node])·Wmsg) and its updated line-edge features relu(x[node]·We).
-/
import proofs.«123437_j25786983645443_2_alg».proof.Proof.EntryFirst
import proofs.«123437_j25786983645443_2_alg».proof.Proof.Region0
import Idealize.ShloMosaic.Lib.StableHlo.Run

set_option maxRecDepth 16384

noncomputable section

namespace Cert.LineGraph.KernelValue

open Idealize.ShloMosaic Idealize.ShloMosaic.TcCoe Idealize.SL.Sem Idealize.ShloMosaic.StableHlo
open Cert.KernelIdeal Cert.KernelIdeal.Gen Cert.LineGraph

variable (m : (ℓ : Loc nD τ sig) → Buf (Elt Ideal) ℓ) (ρ : Dev nD → PrngReg) (c : Dev nD)

/-! ## What the first launch leaves, cut back to the unpadded rows -/

theorem exit_msg : W5 m ρ c (Proc.devRef .tc main_v26_0)
    = msgOf (n := 2637312) (W4 m ρ c (Proc.devRef .tc main_v24)) (W4 m ρ c (Proc.devRef .tc main_v25)) (W4 m ρ c (Proc.devRef .tc main_arg2)) :=
  (W5_arr m ρ c 4).trans (Region0.arr_msg (V4 m ρ) c)

theorem exit_attr : W5 m ρ c (Proc.devRef .tc main_v26_1)
    = attrOf (n := 2637312) (W4 m ρ c (Proc.devRef .tc main_v25)) (W4 m ρ c (Proc.devRef .tc main_arg4)) :=
  (W5_arr m ρ c 5).trans (Region0.arr_attr (V4 m ρ) c)

/-- The first output's unpadded rows are the reference's messages relu((new_x[src] + x[node])·Wmsg). -/
theorem cut_msg : extractStridedSlice S2636206x32 ![0, 0] (W5 m ρ c (Proc.devRef .tc main_v26_0)) slices_S2637312x32_S2636206x32_0_0
    = Cert.ReferenceIdeal.Read.val_main_v26 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg8)) := by
  rw [exit_msg, entry_src_pad, entry_attr_pad, entry_arg2, slice_msgOf_pad]
  exact (host_msgOf (n := 2636206) _ _ _ _).symm

/-- The second output's unpadded rows are the reference's updated line-edge features relu(x[node]·We). -/
theorem cut_attr : extractStridedSlice S2636206x32 ![0, 0] (W5 m ρ c (Proc.devRef .tc main_v26_1)) slices_S2637312x32_S2636206x32_0_0
    = Cert.ReferenceIdeal.Read.val_main_v43 (F := Ideal) (m ((c : Thread nD τ).loc main_arg0)) (m ((c : Thread nD τ).loc main_arg4)) (m ((c : Thread nD τ).loc main_arg8)) := by
  rw [exit_attr, entry_attr_pad, entry_arg4, slice_attrOf_pad]
  exact (host_attrOf (n := 2636206) _ _ _).symm

end Cert.LineGraph.KernelValue

end
-- ==== Proof.EntrySecond.lean ====
/-
  The arrays the second launch is entered with, as the reference's stages of the argument arrays.

  Between the launches the kernel program cuts the first launch's outputs back to the unpadded rows, sums the messages per
  destination edge and divides by the clamped counts (agg), as the reference does, and pads new_x and agg below with rows of
  a constant, up to a whole number of blocks. The weight matrix is still the argument.
-/
import proofs.«123437_j25786983645443_2_alg».proof.Proof.ExitFirst
import Idealize.ShloMosaic.Lib.StableHlo.Run

set_option maxRecDepth 16384

noncomputable section

namespace Cert.LineGraph.KernelValue

open Idealize.ShloMosaic Idealize.ShloMosaic.TcCoe Idealize.SL.Sem Idealize.ShloMosaic.StableHlo
open Cert.KernelIdeal Cert.KernelIdeal.Gen Cert.LineGraph

variable (m : (ℓ : Loc nD τ sig) → Buf (Elt Ideal) ℓ) (ρ : Dev nD → PrngReg) (c : Dev nD)

/-! ## The arrays the second launch is entered with -/

set_option maxHeartbeats 8000000 in
/-- new_x is untouched by the first launch and the stretch after it. -/
theorem mid_newx : W6 m ρ c (Proc.devRef .tc main_v9) = Cert.ReferenceIdeal.Read.val_main_v9 (F := Ideal) (m ((c : Thread nD τ).loc main_arg1)) (m ((c : Thread nD τ).loc main_arg5)) := by
  after_results_simp
  rw [W5_of_ne m ρ c main_v9 (by decide), entry_newx]

set_option maxHeartbeats 8000000 in
/-- agg: the messages summed per destination edge and divided by the clamped counts. -/
theorem mid_agg : W6 m ρ c (Proc.devRef .tc main_v40) = Cert.ReferenceIdeal.Read.val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  after_results_simp
  rw [cut_msg, W5_of_ne m ρ c main_arg7 (by decide), entry_arg7]
  rfl

set_option maxHeartbeats 8000000 in
/-- The first row operand: new_x padded below. -/
theorem mid_newx_pad : W9 m ρ c (Proc.devRef .tc main_v41)
    = pad S82688x32 ![0, 0] ![2761, 0] ![0, 0] (Cert.ReferenceIdeal.Read.val_main_v9 (F := Ideal) (m ((c : Thread nD τ).loc main_arg1)) (m ((c : Thread nD τ).loc main_arg5)))
        (W9 m ρ c (Proc.devRef .tc main_call2_v0)) pads_S79927x32_S82688x32_027610_000 h_S_ := by
  have e := mid_newx m ρ c
  dsimp only [W9, W8, W7]
  generalize W6 m ρ c = Vx at e ⊢
  after_results_simp
  rw [e]
  exact (cast_eq _ _).trans (congrArg₂ (fun (x : (⟨S79927x32, .f32⟩ : BufTy).Contents (Elt Ideal)) (v : (⟨S_, .f32⟩ : BufTy).Contents (Elt Ideal)) =>
    pad S82688x32 (![0, 0] : Fin 2 → Nat) ![2761, 0] ![0, 0] x v pads_S79927x32_S82688x32_027610_000 h_S_) (cast_eq _ _) (cast_eq _ _))

set_option maxHeartbeats 8000000 in
/-- The second row operand: agg padded below. -/
theorem mid_agg_pad : W9 m ρ c (Proc.devRef .tc main_v42)
    = pad S82688x32 ![0, 0] ![2761, 0] ![0, 0] (Cert.ReferenceIdeal.Read.val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)))
        (W9 m ρ c (Proc.devRef .tc main_call3_v0)) pads_S79927x32_S82688x32_027610_000 h_S_ := by
  have e := mid_agg m ρ c
  dsimp only [W9, W8, W7]
  generalize W6 m ρ c = Vx at e ⊢
  after_results_simp
  rw [e]
  exact (cast_eq _ _).trans (congrArg₂ (fun (x : (⟨S79927x32, .f32⟩ : BufTy).Contents (Elt Ideal)) (v : (⟨S_, .f32⟩ : BufTy).Contents (Elt Ideal)) =>
    pad S82688x32 (![0, 0] : Fin 2 → Nat) ![2761, 0] ![0, 0] x v pads_S79927x32_S82688x32_027610_000 h_S_) (cast_eq _ _) (cast_eq _ _))

set_option maxHeartbeats 8000000 in
theorem mid_arg3 : W9 m ρ c (Proc.devRef .tc main_arg3) = (m ((c : Thread nD τ).loc main_arg3)) := by
  after_results_simp
  rw [W5_of_ne m ρ c main_arg3 (by decide), entry_arg3]

end Cert.LineGraph.KernelValue

end
-- ==== Proof.Region1.lean ====
/-
  The second launch: what its output array holds when it ends, as a whole-array layer of the arrays it was entered with.

  The grid has 19 points. At point t the two row operands and the output have the block of rows 4352·t … 4352·t + 4351,
  the weight operand its one block, the whole matrix. The body leaves relu(x·w + g) of the row blocks in the output's block;
  a row of this layer reads the same row of the operands only, so what point t writes back is block t of the layer of
  the whole arrays, and the 19 blocks tile the 82688 rows.
-/
import proofs.«123437_j25786983645443_2_alg».proof.Proof.Bodies
import Idealize.ShloMosaic.Lib.Pipeline.Value

set_option maxRecDepth 16384

noncomputable section

namespace Cert.LineGraph.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.LineGraph

variable (V : (c : Dev nD) → (b : Ref sig .tc) → Buf (Elt Ideal) ((c : Thread nD τ).loc b))

/-- The printed index maps over the grid: the row windows are at block row t, column block 0; the weights at block (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem rowLt (t : Fin cfg1.N) (p : Fin 4352) : t.val * 4352 + p.val < 82688 := by
  have h1 : t.val < 19 := lt_of_lt_of_eq t.isLt N_1
  have h2 := p.isLt
  omega

/-- Entry (p, q) of a row window's block at point t is entry (4352·t + p, q) of its array. -/
theorem emb0 (t : Fin cfg1.N) (p : Fin 4352) (q : Fin 32) :
    ((cfg1.win 0).blk t).view.emb (ix2 p q) = ix2 (⟨t.val * 4352 + p.val, rowLt t p⟩ : Fin 82688) q := by
  obtain ⟨e00, e01, e10, e11, e20, e21, e30, e31⟩ := idx t
  funext a; apply Fin.ext
  match a with
  | ⟨0, _⟩ => show win1_0.index t (0 : Fin 2) * 4352 + 1 * p.val = t.val * 4352 + p.val; omega
  | ⟨1, _⟩ => show win1_0.index t (1 : Fin 2) * 32 + 1 * q.val = q.val; omega
theorem emb1 (t : Fin cfg1.N) (p : Fin 4352) (q : Fin 32) :
    ((cfg1.win 1).blk t).view.emb (ix2 p q) = ix2 (⟨t.val * 4352 + p.val, rowLt t p⟩ : Fin 82688) q := by
  obtain ⟨e00, e01, e10, e11, e20, e21, e30, e31⟩ := idx t
  funext a; apply Fin.ext
  match a with
  | ⟨0, _⟩ => show win1_1.index t (0 : Fin 2) * 4352 + 1 * p.val = t.val * 4352 + p.val; omega
  | ⟨1, _⟩ => show win1_1.index t (1 : Fin 2) * 32 + 1 * q.val = q.val; omega
theorem emb3 (t : Fin cfg1.N) (p : Fin 4352) (q : Fin 32) :
    ((cfg1.win 3).blk t).view.emb (ix2 p q) = ix2 (⟨t.val * 4352 + p.val, rowLt t p⟩ : Fin 82688) q := by
  obtain ⟨e00, e01, e10, e11, e20, e21, e30, e31⟩ := idx t
  funext a; apply Fin.ext
  match a with
  | ⟨0, _⟩ => show win1_3.index t (0 : Fin 2) * 4352 + 1 * p.val = t.val * 4352 + p.val; omega
  | ⟨1, _⟩ => show win1_3.index t (1 : Fin 2) * 32 + 1 * q.val = q.val; omega
/-- The weight window's one block is the whole matrix. -/
theorem emb2 (t : Fin cfg1.N) (y : S32x32.Idx) : ((cfg1.win 2).blk t).view.emb y = y := by
  obtain ⟨e00, e01, e10, e11, e20, e21, e30, e31⟩ := idx t
  funext a; apply Fin.ext
  match a with
  | ⟨0, _⟩ => show win1_2.index t (0 : Fin 2) * 32 + 1 * (y 0).val = (y 0).val; omega
  | ⟨1, _⟩ => show win1_2.index t (1 : Fin 2) * 32 + 1 * (y 1).val = (y 1).val; omega

theorem blk0 (c : Dev nD) (t : Fin cfg1.N) (p : Fin 4352) (q : Fin 32) :
    iblk1 V c 0 t (ix2 p q) = V c main_v41 (ix2 (⟨t.val * 4352 + p.val, rowLt t p⟩ : Fin 82688) q) :=
  congrArg (V c main_v41) (emb0 t p q)
theorem blk1 (c : Dev nD) (t : Fin cfg1.N) (p : Fin 4352) (q : Fin 32) :
    iblk1 V c 1 t (ix2 p q) = V c main_v42 (ix2 (⟨t.val * 4352 + p.val, rowLt t p⟩ : Fin 82688) q) :=
  congrArg (V c main_v42) (emb1 t p q)
theorem blk2 (c : Dev nD) (t : Fin cfg1.N) : iblk1 V c 2 t = V c main_arg3 :=
  funext fun y => congrArg (V c main_arg3) (emb2 t y)

/-- What point t writes back is block t of relu(X·W + G) of the whole arrays. -/
theorem flushed_line (c : Dev nD) (t : Fin cfg1.N) :
    (dat1 (F := Ideal) V c).flushed 3 t = ((cfg1.win 3).blk t).view.read (Elt Ideal)
      (lineOf (n := 82688) (V c main_v41) (V c main_arg3) (V c main_v42)) := by
  show (cfg1.win 3).cut (grid1.coords t) ((dat1 V c).after 3 t) = _
  rw [after1_3, out_line]
  funext j
  obtain ⟨p, q, rfl⟩ : ∃ (p : Fin 4352) (q : Fin 32), j = ix2 p q := ⟨j 0, j 1, eq_ix2 j⟩
  refine (lineOf_rows (V c main_v41) (V c main_arg3) (V c main_v42) (iblk1 V c 0 t) (iblk1 V c 2 t) (iblk1 V c 1 t)
    (blk2 V c t) p ⟨t.val * 4352 + p.val, rowLt t p⟩ q (fun k => blk0 V c t p k) (blk1 V c t p q)).trans ?_
  exact congrArg (lineOf (n := 82688) (V c main_v41) (V c main_arg3) (V c main_v42)) (emb3 t p q).symm

/-- An index of the output array is in point t's block iff each coordinate is in the block's range on its axis. -/
theorem mem_blk3 (t : Fin cfg1.N) (i : S82688x32.Idx) :
    i ∈ ((cfg1.win 3).blk t).view.set ↔ ∀ a : Fin 2, win1_3.index t a * S4352x32.size a ≤ (i a).val ∧ (i a).val < win1_3.index t a * S4352x32.size a + S4352x32.size a := by
  show i ∈ ((View.whole main_v43).slice (win1_3.rect t)).set ↔ _
  rw [View.set_slice_whole, Rect.mem_set_unit]
  exact Iff.rfl

/-- The point whose block holds row r is r / 4352. -/
def pointOf (i : S82688x32.Idx) : Fin cfg1.N :=
  ⟨(i 0).val / 4352, by
    have h : (i 0).val < 82688 := (i 0).isLt
    rw [show cfg1.N = 19 from N_1]; omega⟩

theorem cover3 (i : S82688x32.Idx) : ∃ t : Fin cfg1.N, (cfg1.win 3).flush t = true ∧ i ∈ ((cfg1.win 3).blk t).view.set := by
  have h0 : (i 0).val < 82688 := (i 0).isLt
  have h1 : (i 1).val < 32 := (i 1).isLt
  refine ⟨pointOf i, flush1_3 _, ?_⟩
  rw [mem_blk3]
  obtain ⟨e00, e01, e10, e11, e20, e21, e30, e31⟩ := idx (pointOf i)
  have ht : (pointOf i).val = (i 0).val / 4352 := rfl
  intro a
  match a with
  | ⟨0, _⟩ => show win1_3.index (pointOf i) (0 : Fin 2) * 4352 ≤ (i 0).val ∧ (i 0).val < win1_3.index (pointOf i) (0 : Fin 2) * 4352 + 4352; omega
  | ⟨1, _⟩ => show win1_3.index (pointOf i) (1 : Fin 2) * 32 ≤ (i 1).val ∧ (i 1).val < win1_3.index (pointOf i) (1 : Fin 2) * 32 + 32; omega

/-- The output array after the launch: relu(X·W + G) of the arrays the launch was entered with. -/
theorem arr_line (c : Dev nD) :
    (dat1 (F := Ideal) V c).arrAt 3 cfg1.N = lineOf (n := 82688) (V c main_v41) (V c main_arg3) (V c main_v42) :=
  (dat1 V c).arrAt_eq_of_cover 3 _ (fun t _ => flushed_line V c t) cover3

end Cert.LineGraph.Region1

end
-- ==== Proof.ExitSecond.lean ====
/-
  What the second launch leaves, cut back to the unpadded rows, as the reference's layer.

  The launch's output is relu(X·W + G) of the padded arrays it was entered with; a row of it reads the same row of X and G
  only, so the first 79927 rows are the reference's updated line-node features relu(new_x·Wn + agg).
-/
import proofs.«123437_j25786983645443_2_alg».proof.Proof.EntrySecond
import proofs.«123437_j25786983645443_2_alg».proof.Proof.Region1
import Idealize.ShloMosaic.Lib.StableHlo.Run

set_option maxRecDepth 16384

noncomputable section

namespace Cert.LineGraph.KernelValue

open Idealize.ShloMosaic Idealize.ShloMosaic.TcCoe Idealize.SL.Sem Idealize.ShloMosaic.StableHlo
open Cert.KernelIdeal Cert.KernelIdeal.Gen Cert.LineGraph

variable (m : (ℓ : Loc nD τ sig) → Buf (Elt Ideal) ℓ) (ρ : Dev nD → PrngReg) (c : Dev nD)

/-! ## What the second launch leaves, cut back to the unpadded rows -/

theorem exit_line : W10 m ρ c (Proc.devRef .tc main_v43)
    = lineOf (n := 82688) (W9 m ρ c (Proc.devRef .tc main_v41)) (W9 m ρ c (Proc.devRef .tc main_arg3)) (W9 m ρ c (Proc.devRef .tc main_v42)) :=
  (W10_arr m ρ c 3).trans (Region1.arr_line (V9 m ρ) c)

/-- The output's unpadded rows are the reference's updated line-node features relu(new_x·Wn + agg). -/
theorem cut_line : extractStridedSlice S79927x32 ![0, 0] (W10 m ρ c (Proc.devRef .tc main_v43)) slices_S82688x32_S79927x32_0_0
    = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) := by
  rw [exit_line, mid_newx_pad, mid_agg_pad, mid_arg3, slice_lineOf_pad]
  exact (host_lineOf (n := 79927) _ _ _ _).symm

end Cert.LineGraph.KernelValue

end
-- ==== Proof.Results.lean ====
/-
  The two results at the last boundary, as the reference's stages of the argument arrays.

  After the second launch the kernel program gathers the updated line-node features back onto the directed edges (the
  edge result), and sums the updated line-edge features per node and divides by the clamped counts (the node result): the
  reference's own operations on operands already identified with the reference's.
-/
import proofs.«123437_j25786983645443_2_alg».proof.Proof.ExitSecond
import Idealize.ShloMosaic.Lib.StableHlo.Run

set_option maxRecDepth 16384

noncomputable section

namespace Cert.LineGraph.KernelValue

open Idealize.ShloMosaic Idealize.ShloMosaic.TcCoe Idealize.SL.Sem Idealize.ShloMosaic.StableHlo
open Cert.KernelIdeal Cert.KernelIdeal.Gen Cert.LineGraph

variable (m : (ℓ : Loc nD τ sig) → Buf (Elt Ideal) ℓ) (ρ : Dev nD → PrngReg) (c : Dev nD)

/-! ## The buffers the last host stretch reads -/

set_option maxHeartbeats 8000000 in
theorem late_attr : W10 m ρ c (Proc.devRef .tc main_v28) = Cert.ReferenceIdeal.Read.val_main_v43 (F := Ideal) (m ((c : Thread nD τ).loc main_arg0)) (m ((c : Thread nD τ).loc main_arg4)) (m ((c : Thread nD τ).loc main_arg8)) := by
  rw [W10_of_ne m ρ c main_v28 (by decide)]
  after_results_simp
  exact cut_attr m ρ c

set_option maxHeartbeats 8000000 in
theorem late_arg8 : W10 m ρ c (Proc.devRef .tc main_arg8) = (m ((c : Thread nD τ).loc main_arg8)) := by
  rw [W10_of_ne m ρ c main_arg8 (by decide)]
  after_results_simp
  rw [W5_of_ne m ρ c main_arg8 (by decide), entry_arg8]

set_option maxHeartbeats 8000000 in
theorem late_arg9 : W10 m ρ c (Proc.devRef .tc main_arg9) = (m ((c : Thread nD τ).loc main_arg9)) := by
  rw [W10_of_ne m ρ c main_arg9 (by decide)]
  after_results_simp
  rw [W5_of_ne m ρ c main_arg9 (by decide), entry_arg9]

/-! ## The two results -/

set_option maxHeartbeats 8000000 in
/-- The node result: the updated line-edge features summed per node and divided by the clamped counts. -/
theorem result_nodes : W11 m ρ c (Proc.devRef .tc main_v63) = Cert.ReferenceIdeal.Read.val_main_v62 (F := Ideal) (m ((c : Thread nD τ).loc main_arg0)) (m ((c : Thread nD τ).loc main_arg4)) (m ((c : Thread nD τ).loc main_arg8)) := by
  after_results_simp
  rw [late_attr, late_arg8]
  rfl

set_option maxHeartbeats 8000000 in
/-- The edge result: the updated line-node features gathered back onto the directed edges. -/
theorem result_edges : W11 m ρ c (Proc.devRef .tc main_v51)
    = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) := by
  after_results_simp
  rw [cut_line, late_arg9]
  rfl

end Cert.LineGraph.KernelValue

end
-- ==== Proof.lean ====
/-
  Line-graph message passing: the Pallas program against its jnp reference, at the ideal values.

  Both programs average the two directed attributes of every undirected edge (new_x), gather node and edge features along
  the line-graph edges, form the messages relu((new_x[src] + x[node])·Wmsg) and the updated line-edge features
  relu(x[node]·We), sum the messages per destination edge and divide by the clamped counts (agg), form the updated
  line-node features relu(new_x·Wn + agg), gather these back onto the directed edges (the edge result), and sum the
  updated line-edge features per node and divide by the clamped counts (the node result). The reference states the three
  layers with host matrix products; the kernel program computes them in two launches over blocks of 4352 rows, on arrays
  padded below to a whole number of blocks, and cuts the padding off again.

  At the ideal values the narrowing of the matrix unit's operands is the identity and a product into the zero accumulator is
  the plain product, so each launch's block is the layer of its row blocks. A row of a layer reads the same row of its
  array operands only; hence the blocks assemble to the layer of the padded arrays, whose first rows are the layer of the
  unpadded arrays whatever the padding holds. Every other operation is the reference's own, on equal operands. No
  property of the inputs is used: the equality holds for all extended-real inputs.

  The three frames are the generated ones (the reference's is its generated run with the results dropped); the idealization
  rewrote no operation, so its claim is trivial.
-/
import proofs.«123437_j25786983645443_2_alg».proof.Defs
import proofs.«123437_j25786983645443_2_alg».proof.Proof.Gen.Kernel
import proofs.«123437_j25786983645443_2_alg».proof.Proof.Gen.Kernel.Skeleton
import proofs.«123437_j25786983645443_2_alg».proof.Proof.Gen.Kernel.Launch
import proofs.«123437_j25786983645443_2_alg».proof.Proof.Gen.Kernel.Points
import proofs.«123437_j25786983645443_2_alg».proof.Proof.Gen.Kernel.Frame
import proofs.«123437_j25786983645443_2_alg».proof.Proof.Gen.KernelIdeal
import proofs.«123437_j25786983645443_2_alg».proof.Proof.Gen.KernelIdeal.Skeleton
import proofs.«123437_j25786983645443_2_alg».proof.Proof.Gen.KernelIdeal.Launch
import proofs.«123437_j25786983645443_2_alg».proof.Proof.Gen.KernelIdeal.Points
import proofs.«123437_j25786983645443_2_alg».proof.Proof.Gen.KernelIdeal.Frame
import proofs.«123437_j25786983645443_2_alg».proof.Proof.Gen.ReferenceIdeal
import proofs.«123437_j25786983645443_2_alg».proof.Proof.Gen.ReferenceIdeal.Run
import proofs.«123437_j25786983645443_2_alg».proof.Proof.Gen.ReferenceIdeal.Read
import proofs.«123437_j25786983645443_2_alg».proof.Proof.Gen.Pre_finite_inputs
import proofs.«123437_j25786983645443_2_alg».proof.Proof.KernelRun
import proofs.«123437_j25786983645443_2_alg».proof.Proof.Results
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the two results dropped. -/
theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs end with the node result and the edge result at the reference's stages of the (agreeing) argument arrays. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.KernelIdeal.Gen.W11 m ρ c (Proc.devRef .tc Cert.KernelIdeal.main_v63),
    fun c => Cert.KernelIdeal.Gen.W11 m ρ c (Proc.devRef .tc Cert.KernelIdeal.main_v51),
    Cert.LineGraph.KernelRun.run_named m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9⟩ := hagree c
    rw [h0, h4, h8]
    exact (Cert.ReferenceIdeal.Read.val_main_v62_eq _ _ _).trans (Cert.LineGraph.KernelValue.result_nodes m ρ c).symm
  · obtain ⟨h0, h1, h2, h3, h4, h5, h6, h7, h8, h9⟩ := hagree c
    rw [h0, h1, h2, h3, h5, h6, h7, h8, h9]
    exact (Cert.ReferenceIdeal.Read.val_main_v50_eq _ _ _ _ _ _ _ _ _).trans (Cert.LineGraph.KernelValue.result_edges m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
